-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x56x56 : Shape := ⟨4, ![32, 256, 56, 56]⟩
abbrev S64x256 : Shape := ⟨2, ![64, 256]⟩
abbrev S64 : Shape := ⟨1, ![64]⟩
abbrev S256x64 : Shape := ⟨2, ![256, 64]⟩
abbrev S256 : Shape := ⟨1, ![256]⟩
abbrev S_ : Shape := ⟨0, ![]⟩

class Facts : Prop where
  bcast_S_S32x256x56x56 : S_.BroadcastsInDim S32x256x56x56 (![] : Fin 0 → Fin S32x256x56x56.rank)
  reducesTo_S32x256x56x56_S_d0_1_2_3 : S32x256x56x56.ReducesTo [0, 1, 2, 3] S_
  h_S_ : 0 < S_.numel
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256x64 .f32) (main_arg5 : FVec F S256 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S256x64 .f32 := Host.absf main_arg4
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S32x256x56x56 .f32) (main_arg1 : FVec F S32x256x56x56 .f32) (main_arg2 : FVec F S64x256 .f32) (main_arg3 : FVec F S64 .f32) (main_arg4 : FVec F S256x64 .f32) (main_arg5 : FVec F S256 .f32) : IVec S_ 1 :=
  let main_v0 : FVec F S32x256x56x56 .f32 := Host.absf main_arg0
  let main_cst : FVec F S_ .f32 := constant S_ .f32 0x7F800000#32
  let main_v1 : FVec F S32x256x56x56 .f32 := broadcastInDim S32x256x56x56 ![] bcast_S_S32x256x56x56 main_cst
  let main_v2 : IVec S32x256x56x56 1 := cmpf .olt main_v0 main_v1
  let main_c : IVec S_ 1 := constantI S_ 1 1#1
  let main_v3 : IVec S_ 1 := (fun x v => Host.reduce IntOp.andi x v reducesTo_S32x256x56x56_S_d0_1_2_3 h_S_) main_v2 main_c
  let main_v4 : FVec F S32x256x56x56 .f32 := Host.absf main_arg1
  let main_cst_0 : FVec F S_ .f32 := constant S_ .f32 0x7F800000#32
  let main_v5 : FVec F S32x256x56x56 .f32 := broadcastInDim S32x256x56x56 ![] bcast_S_S32x256x56x56 main_cst_0
  let main_v6 : IVec S32x256x56x56 1 := cmpf .olt main_v4 main_v5
  let main_c_1 : IVec S_ 1 := constantI S_ 1 1#1
  let main_v7 : IVec S_ 1 := (fun x v => Host.reduce IntOp.andi x v reducesTo_S32x256x56x56_S_d0_1_2_3 h_S_) main_v6 main_c_1
  let main_v8 : IVec S_ 1 := andi main_v3 main_v7
  let main_v9 : FVec F S64x256 .f32 := Host.absf main_arg2
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S32x256x56x56 : Shape := ⟨4, ![32, 256, 56, 56]⟩
abbrev S64x256 : Shape := ⟨2, ![64, 256]⟩
abbrev S64 : Shape := ⟨1, ![64]⟩
abbrev S256x64 : Shape := ⟨2, ![256, 64]⟩
abbrev S256 : Shape := ⟨1, ![256]⟩
abbrev S1x64 : Shape := ⟨2, ![1, 64]⟩
abbrev S1x256 : Shape := ⟨2, ![1, 256]⟩
abbrev S1x256x56x56 : Shape := ⟨4, ![1, 256, 56, 56]⟩
abbrev S1x256x1x1 : Shape := ⟨4, ![1, 256, 1, 1]⟩

abbrev nBuf : Space → Nat
  | .hbm => 11
  | .vmem => 10
  | .smem => 0
  | _ => 0

abbrev bufTy : (tb : Table) → Fin (tcTables nBuf tb) → BufTy
  | .hbm, ⟨0, _⟩ => ⟨S32x256x56x56, .f32⟩
  | .hbm, ⟨1, _⟩ => ⟨S32x256x56x56, .f32⟩
  | .hbm, ⟨2, _⟩ => ⟨S64x256, .f32⟩
  | .hbm, ⟨3, _⟩ => ⟨S64, .f32⟩
  | .hbm, ⟨4, _⟩ => ⟨S256x64, .f32⟩
  | .hbm, ⟨5, _⟩ => ⟨S256, .f32⟩
  | .hbm, ⟨6, _⟩ => ⟨S256x64, .f32⟩
  | .hbm, ⟨7, _⟩ => ⟨S64x256, .f32⟩
  | .hbm, ⟨8, _⟩ => ⟨S1x64, .f32⟩
  | .hbm, ⟨9, _⟩ => ⟨S1x256, .f32⟩
  | .hbm, ⟨10, _⟩ => ⟨S32x256x56x56, .f32⟩
  | .local _ .vmem, ⟨0, _⟩ => ⟨S1x256x56x56, .f32⟩
  | .local _ .vmem, ⟨1, _⟩ => ⟨S1x256x56x56, .f32⟩
  | .local _ .vmem, ⟨2, _⟩ => ⟨S1x256x56x56, .f32⟩
  | .local _ .vmem, ⟨3, _⟩ => ⟨S1x256x56x56, .f32⟩
  | .local _ .vmem, ⟨4, _⟩ => ⟨S256x64, .f32⟩
  | .local _ .vmem, ⟨5, _⟩ => ⟨S1x64, .f32⟩
  | .local _ .vmem, ⟨6, _⟩ => ⟨S64x256, .f32⟩
  | .local _ .vmem, ⟨7, _⟩ => ⟨S1x256, .f32⟩
  | .local _ .vmem, ⟨8, _⟩ => ⟨S1x256x56x56, .f32⟩
  | .local _ .vmem, ⟨9, _⟩ => ⟨S1x256x56x56, .f32⟩
  | _, _ => ⟨S32x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x56x56 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x56x56 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x256x56x56 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S64x256_S256x64_1_0 : S64x256.Transposes [1, 0] S256x64
  transposes_S256x64_S64x256_1_0 : S256x64.Transposes [1, 0] S64x256
  shapeCasts_S64_S1x64 : S64.ShapeCasts S1x64
  shapeCasts_S256_S1x256 : S256.ShapeCasts S1x256
  inb_S1x256x56x56_S1x256x56x56_0_0_0_0 : ∀ a, (![0, 0, 0, 0] : Fin 4 → Nat) a + S1x256x56x56.size a ≤ S1x256x56x56.size a
  h_S1x256x56x56 : 0 < S1x256x56x56.numel
  reduces_S1x256x56x56_S1x256 : S1x256x56x56.Reduces [2, 3] S1x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S1x256_S1x256x1x1 : S1x256.ShapeCasts S1x256x1x1
  broadcasts_S1x256x1x1_S1x256x56x56 : S1x256x1x1.Broadcasts S1x256x56x56
  dot_S1x256_S256x64_S1x64_1_0_0_1_n_n_wf : DotDims.WF S1x256 S256x64 S1x64 [1] [0] [0] [1] [] []
  dot_S1x64_S64x256_S1x256_1_0_0_1_n_n_wf : DotDims.WF S1x64 S64x256 S1x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x56x56.size a ≤ S32x256x56x56.size a
  hwx0_0 : ∀ i : grid0.Coords, EltTy.bits .f32 = 32 ∨ (Rect.block (s := S32x256x56x56) S1x256x56x56.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x56x56.size a ≤ S32x256x56x56.size a
  hwx0_1 : ∀ i : grid0.Coords, EltTy.bits .f32 = 32 ∨ (Rect.block (s := S32x256x56x56) S1x256x56x56.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S256x64.size a
  hwx0_2 : ∀ i : grid0.Coords, EltTy.bits .f32 = 32 ∨ (Rect.block (s := S256x64) S256x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x256.size a ≤ S64x256.size a
  hwx0_4 : ∀ i : grid0.Coords, EltTy.bits .f32 = 32 ∨ (Rect.block (s := S64x256) S64x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x56x56.size a ≤ S32x256x56x56.size a
  hwx0_6 : ∀ i : grid0.Coords, EltTy.bits .f32 = 32 ∨ (Rect.block (s := S32x256x56x56) S1x256x56x56.size (cc0_transform_6 i) (hinb0_6 i)).WholeWords (EltTy.packing .f32)

variable [Facts₀]

def dot_S1x256_S256x64_S1x64_1_0_0_1_n_n : DotDims S1x256 S256x64 S1x64 where
  lhsContracting := [1]
  rhsContracting := [0]
  lhsNonContracting := [0]
  rhsNonContracting := [1]
  lhsBatch := []
  rhsBatch := []
  wf := dot_S1x256_S256x64_S1x64_1_0_0_1_n_n_wf
def dot_S1x64_S64x256_S1x256_1_0_0_1_n_n : DotDims S1x64 S64x256 S1x256 where
  lhsContracting := [1]
  rhsContracting := [0]
  lhsNonContracting := [0]
  rhsNonContracting := [1]
  lhsBatch := []
  rhsBatch := []
  wf := dot_S1x64_S64x256_S1x256_1_0_0_1_n_n_wf

abbrev win0_0 : Pipeline.Window sig grid0 :=
  Pipeline.Window.ofSpec (Memref.whole main_arg0) S1x256x56x56.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x56x56.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S64x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x256x56x56.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32x256x56x56 : Shape := ⟨4, ![32, 256, 56, 56]⟩
abbrev S64x256 : Shape := ⟨2, ![64, 256]⟩
abbrev S64 : Shape := ⟨1, ![64]⟩
abbrev S256x64 : Shape := ⟨2, ![256, 64]⟩
abbrev S256 : Shape := ⟨1, ![256]⟩
abbrev S8192x3136 : Shape := ⟨2, ![8192, 3136]⟩
abbrev S_ : Shape := ⟨0, ![]⟩
abbrev S8192x3200 : Shape := ⟨2, ![8192, 3200]⟩
abbrev S8192x1 : Shape := ⟨2, ![8192, 1]⟩
abbrev S256x640 : Shape := ⟨2, ![256, 640]⟩
abbrev S256x1 : Shape := ⟨2, ![256, 1]⟩
abbrev S8192 : Shape := ⟨1, ![8192]⟩
abbrev S32x256 : Shape := ⟨2, ![32, 256]⟩
abbrev S32x64 : Shape := ⟨2, ![32, 64]⟩
abbrev S1x64 : Shape := ⟨2, ![1, 64]⟩
abbrev S1x256 : Shape := ⟨2, ![1, 256]⟩

abbrev nBuf : Space → Nat
  | .hbm => 51
  | .vmem => 10
  | .smem => 0
  | _ => 0

abbrev bufTy : (tb : Table) → Fin (tcTables nBuf tb) → BufTy
  | .hbm, ⟨0, _⟩ => ⟨S32x256x56x56, .f32⟩
  | .hbm, ⟨1, _⟩ => ⟨S32x256x56x56, .f32⟩
  | .hbm, ⟨2, _⟩ => ⟨S64x256, .f32⟩
  | .hbm, ⟨3, _⟩ => ⟨S64, .f32⟩
  | .hbm, ⟨4, _⟩ => ⟨S256x64, .f32⟩
  | .hbm, ⟨5, _⟩ => ⟨S256, .f32⟩
  | .hbm, ⟨6, _⟩ => ⟨S8192x3136, .f32⟩
  | .hbm, ⟨7, _⟩ => ⟨S_, .i32⟩
  | .hbm, ⟨8, _⟩ => ⟨S_, .f32⟩
  | .hbm, ⟨9, _⟩ => ⟨S8192x3200, .f32⟩
  | .hbm, ⟨10, _⟩ => ⟨S8192x1, .f32⟩
  | .hbm, ⟨11, _⟩ => ⟨S8192, .f32⟩
  | .hbm, ⟨12, _⟩ => ⟨S32x256, .f32⟩
  | .hbm, ⟨13, _⟩ => ⟨S_, .f32⟩
  | .hbm, ⟨14, _⟩ => ⟨S32x256, .f32⟩
  | .hbm, ⟨15, _⟩ => ⟨S32x256, .f32⟩
  | .hbm, ⟨16, _⟩ => ⟨S256x64, .f32⟩
  | .hbm, ⟨17, _⟩ => ⟨S32x64, .f32⟩
  | .hbm, ⟨18, _⟩ => ⟨S1x64, .f32⟩
  | .hbm, ⟨19, _⟩ => ⟨S32x64, .f32⟩
  | .hbm, ⟨20, _⟩ => ⟨S32x64, .f32⟩
  | .hbm, ⟨21, _⟩ => ⟨S32x64, .f32⟩
  | .hbm, ⟨22, _⟩ => ⟨S32x64, .f32⟩
  | .hbm, ⟨23, _⟩ => ⟨S_, .f32⟩
  | .hbm, ⟨24, _⟩ => ⟨S32x64, .f32⟩
  | .hbm, ⟨25, _⟩ => ⟨S32x64, .f32⟩
  | .hbm, ⟨26, _⟩ => ⟨S_, .f32⟩
  | .hbm, ⟨27, _⟩ => ⟨S32x64, .f32⟩
  | .hbm, ⟨28, _⟩ => ⟨S32x64, .f32⟩
  | .hbm, ⟨29, _⟩ => ⟨S32x64, .f32⟩
  | .hbm, ⟨30, _⟩ => ⟨S64x256, .f32⟩
  | .hbm, ⟨31, _⟩ => ⟨S32x256, .f32⟩
  | .hbm, ⟨32, _⟩ => ⟨S1x256, .f32⟩
  | .hbm, ⟨33, _⟩ => ⟨S32x256, .f32⟩
  | .hbm, ⟨34, _⟩ => ⟨S32x256, .f32⟩
  | .hbm, ⟨35, _⟩ => ⟨S32x256, .f32⟩
  | .hbm, ⟨36, _⟩ => ⟨S32x256, .f32⟩
  | .hbm, ⟨37, _⟩ => ⟨S_, .f32⟩
  | .hbm, ⟨38, _⟩ => ⟨S32x256, .f32⟩
  | .hbm, ⟨39, _⟩ => ⟨S32x256, .f32⟩
  | .hbm, ⟨40, _⟩ => ⟨S_, .f32⟩
  | .hbm, ⟨41, _⟩ => ⟨S32x256, .f32⟩
  | .hbm, ⟨42, _⟩ => ⟨S32x256, .f32⟩
  | .hbm, ⟨43, _⟩ => ⟨S8192x3136, .f32⟩
  | .hbm, ⟨44, _⟩ => ⟨S_, .i32⟩
  | .hbm, ⟨45, _⟩ => ⟨S_, .f32⟩
  | .hbm, ⟨46, _⟩ => ⟨S8192x3200, .f32⟩
  | .hbm, ⟨47, _⟩ => ⟨S8192x1, .f32⟩
  | .hbm, ⟨48, _⟩ => ⟨S8192x3200, .f32⟩
  | .hbm, ⟨49, _⟩ => ⟨S8192x3136, .f32⟩
  | .hbm, ⟨50, _⟩ => ⟨S32x256x56x56, .f32⟩
  | .local _ .vmem, ⟨0, _⟩ => ⟨S256x640, .f32⟩
  | .local _ .vmem, ⟨1, _⟩ => ⟨S256x640, .f32⟩
  | .local _ .vmem, ⟨2, _⟩ => ⟨S256x1, .f32⟩
  | .local _ .vmem, ⟨3, _⟩ => ⟨S256x1, .f32⟩
  | .local _ .vmem, ⟨4, _⟩ => ⟨S256x1, .f32⟩
  | .local _ .vmem, ⟨5, _⟩ => ⟨S256x1, .f32⟩
  | .local _ .vmem, ⟨6, _⟩ => ⟨S256x640, .f32⟩
  | .local _ .vmem, ⟨7, _⟩ => ⟨S256x640, .f32⟩
  | .local _ .vmem, ⟨8, _⟩ => ⟨S256x640, .f32⟩
  | .local _ .vmem, ⟨9, _⟩ => ⟨S256x640, .f32⟩
  | _, _ => ⟨S32x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_4 : Ref sig .tc := ⟨.hbm, 44, rfl⟩
abbrev main_call1_v0 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![32, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![32, 5], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S256x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x640 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S256x640 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S32x256x56x56_S8192x3136 : S32x256x56x56.ShapeCasts S8192x3136
  pads_S8192x3136_S8192x3200_000_0640 : S8192x3136.Pads (![0, 0] : Fin 2 → Nat) ![0, 64] ![0, 0] S8192x3200
  h_S_ : 0 < S_.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x640_S256x640_0_0 : ∀ a, (![0, 0] : Fin 2 → Nat) a + S256x640.size a ≤ S256x640.size a
  h_S256x640 : 0 < S256x640.numel
  shapeCasts_S256x640_S256x640 : S256x640.ShapeCasts S256x640
  reduces_S256x640_S256 : S256x640.Reduces [1] S256
  shapeCasts_S256_S256x1 : S256.ShapeCasts S256x1
  shapeCasts_S8192x1_S8192 : S8192x1.ShapeCasts S8192
  shapeCasts_S8192_S32x256 : S8192.ShapeCasts S32x256
  bcast_S_S32x256 : S_.BroadcastsInDim S32x256 (![] : Fin 0 → Fin S32x256.rank)
  transposes_S64x256_S256x64_1_0 : S64x256.Transposes [1, 0] S256x64
  bcast_S64_S1x64_1 : S64.BroadcastsInDim S1x64 (![1] : Fin 1 → Fin S1x64.rank)
  bcast_S1x64_S32x64_0_1 : S1x64.BroadcastsInDim S32x64 (![0, 1] : Fin 2 → Fin S32x64.rank)
  bcast_S_S32x64 : S_.BroadcastsInDim S32x64 (![] : Fin 0 → Fin S32x64.rank)
  transposes_S256x64_S64x256_1_0 : S256x64.Transposes [1, 0] S64x256
  bcast_S256_S1x256_1 : S256.BroadcastsInDim S1x256 (![1] : Fin 1 → Fin S1x256.rank)
  bcast_S1x256_S32x256_0_1 : S1x256.BroadcastsInDim S32x256 (![0, 1] : Fin 2 → Fin S32x256.rank)
  shapeCasts_S32x256_S8192x1 : S32x256.ShapeCasts S8192x1
  broadcasts_S256x1_S256x640 : S256x1.Broadcasts S256x640
  slices_S8192x3200_S8192x3136_0_0 : S8192x3200.Slices ![0, 0] S8192x3136
  shapeCasts_S8192x3136_S32x256x56x56 : S8192x3136.ShapeCasts S32x256x56x56
  dot_S32x256_S256x64_S32x64_1_0_0_1_n_n_wf : DotDims.WF S32x256 S256x64 S32x64 [1] [0] [0] [1] [] []
  dot_S32x64_S64x256_S32x256_1_0_0_1_n_n_wf : DotDims.WF S32x64 S64x256 S32x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x640.size a ≤ S8192x3200.size a
  hwx0_0 : ∀ i : grid0.Coords, EltTy.bits .f32 = 32 ∨ (Rect.block (s := S8192x3200) S256x640.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S8192x1.size a
  hwx0_1 : ∀ i : grid0.Coords, EltTy.bits .f32 = 32 ∨ (Rect.block (s := S8192x1) S256x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1.size a ≤ S8192x1.size a
  hwx1_0 : ∀ i : grid1.Coords, EltTy.bits .f32 = 32 ∨ (Rect.block (s := S8192x1) S256x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x640.size a ≤ S8192x3200.size a
  hwx1_1 : ∀ i : grid1.Coords, EltTy.bits .f32 = 32 ∨ (Rect.block (s := S8192x3200) S256x640.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x640.size a ≤ S8192x3200.size a
  hwx1_2 : ∀ i : grid1.Coords, EltTy.bits .f32 = 32 ∨ (Rect.block (s := S8192x3200) S256x640.size (cc1_transform_2 i) (hinb1_2 i)).WholeWords (EltTy.packing .f32)

variable [Facts₀]

def dot_S32x256_S256x64_S32x64_1_0_0_1_n_n : DotDims S32x256 S256x64 S32x64 where
  lhsContracting := [1]
  rhsContracting := [0]
  lhsNonContracting := [0]
  rhsNonContracting := [1]
  lhsBatch := []
  rhsBatch := []
  wf := dot_S32x256_S256x64_S32x64_1_0_0_1_n_n_wf
def dot_S32x64_S64x256_S32x256_1_0_0_1_n_n : DotDims S32x64 S64x256 S32x256 where
  lhsContracting := [1]
  rhsContracting := [0]
  lhsNonContracting := [0]
  rhsNonContracting := [1]
  lhsBatch := []
  rhsBatch := []
  wf := dot_S32x64_S64x256_S32x256_1_0_0_1_n_n_wf

abbrev win0_0 : Pipeline.Window sig grid0 :=
  Pipeline.Window.ofSpec (Memref.whole main_v1) S256x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v32) S256x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S256x640.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S256x640.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== Proof.Spec.lean ====
/-
  The squeeze-and-excite gate as ONE function of the six argument arrays, index by index, on the extended reals.

  For a batch element `b` and a channel `c` the activation `x` is averaged over its 56 × 56 window (the window's
  sum times the binary32 word nearest 1/3136, the same word in both programs), the pooled row goes through a dense
  layer to 64 hidden units with the swish nonlinearity `a · σ(a)`, a second dense layer back to 256 channels, and
  the logistic function `σ`; the result scales every entry of `z`'s window `(b, c)`:

      out[b, c, h, w] = σ( Σ_k swish( Σ_c' pool[b, c'] · w1[k, c'] + b1[k] ) · w2[c, k] + b2[c] ) · z[b, c, h, w].

  Nothing here mentions a program: both sides are shown equal to `G`.
-/
import Idealize.ShloMosaic.PureOps.Ideal
import Idealize.ShloMosaic.Lib.ValueIdx

noncomputable section

open scoped BigOperators

namespace Cert.SE

open Idealize.ShloMosaic Idealize.ShloMosaic.ValueIdx

/-- The activations' shape, batch × channel × height × width. -/
abbrev SX : Shape := ⟨4, ![32, 256, 56, 56]⟩
/-- The first dense layer's weights, hidden × channel, and bias. -/
abbrev SW1 : Shape := ⟨2, ![64, 256]⟩
abbrev SB1 : Shape := ⟨1, ![64]⟩
/-- The second dense layer's weights, channel × hidden, and bias. -/
abbrev SW2 : Shape := ⟨2, ![256, 64]⟩
abbrev SB2 : Shape := ⟨1, ![256]⟩

/-- The scale of the average: the binary32 word both programs spell for 1/3136, read as its exact value. -/
def invHW : EReal := Ideal.ofBits .f32 0x39A72F05#32

/-- The sum of `x` over the window of batch element `b`, channel `c`. -/
def windowSum (x : FVec Ideal SX .f32) (b : Fin 32) (c : Fin 256) : EReal :=
  ∑ h : Fin 56, ∑ w : Fin 56, x (ix4 b c h w)

/-- The pooled activation: the window's sum times the scale. -/
def pooled (x : FVec Ideal SX .f32) (b : Fin 32) (c : Fin 256) : EReal :=
  windowSum x b c * invHW

/-- The first dense layer before its nonlinearity. -/
def pre1 (x : FVec Ideal SX .f32) (w1 : FVec Ideal SW1 .f32) (b1 : FVec Ideal SB1 .f32) (b : Fin 32) (k : Fin 64) : EReal :=
  (∑ c : Fin 256, pooled x b c * w1 (ix2 k c)) + b1 (ix1 k)

/-- The hidden unit: swish of the first layer, `a · σ(a)`. -/
def hidden (x : FVec Ideal SX .f32) (w1 : FVec Ideal SW1 .f32) (b1 : FVec Ideal SB1 .f32) (b : Fin 32) (k : Fin 64) : EReal :=
  pre1 x w1 b1 b k * Ideal.logistic (pre1 x w1 b1 b k)

/-- The second dense layer before its nonlinearity. -/
def pre2 (x : FVec Ideal SX .f32) (w1 : FVec Ideal SW1 .f32) (b1 : FVec Ideal SB1 .f32)
    (w2 : FVec Ideal SW2 .f32) (b2 : FVec Ideal SB2 .f32) (b : Fin 32) (c : Fin 256) : EReal :=
  (∑ k : Fin 64, hidden x w1 b1 b k * w2 (ix2 c k)) + b2 (ix1 c)

/-- The gate of channel `c` of batch element `b`. -/
def gate (x : FVec Ideal SX .f32) (w1 : FVec Ideal SW1 .f32) (b1 : FVec Ideal SB1 .f32)
    (w2 : FVec Ideal SW2 .f32) (b2 : FVec Ideal SB2 .f32) (b : Fin 32) (c : Fin 256) : EReal :=
  Ideal.logistic (pre2 x w1 b1 w2 b2 b c)

/-- The result: every entry of `z` scaled by its window's gate. -/
def G (x z : FVec Ideal SX .f32) (w1 : FVec Ideal SW1 .f32) (b1 : FVec Ideal SB1 .f32)
    (w2 : FVec Ideal SW2 .f32) (b2 : FVec Ideal SB2 .f32) : FVec Ideal SX .f32 :=
  fun i => gate x w1 b1 w2 b2 (i 0) (i 1) * z i

theorem G_apply (x z : FVec Ideal SX .f32) (w1 : FVec Ideal SW1 .f32) (b1 : FVec Ideal SB1 .f32)
    (w2 : FVec Ideal SW2 .f32) (b2 : FVec Ideal SB2 .f32) (b : Fin 32) (c : Fin 256) (h w : Fin 56) :
    G x z w1 b1 w2 b2 (ix4 b c h w) = gate x w1 b1 w2 b2 b c * z (ix4 b c h w) := rfl

end Cert.SE

end
-- ==== Proof.KernelWindowSum.lean ====
/-
  A sum over the last two axes of a rank-4 block, read at an index of the two axes kept.

  The reduction adds up the entries whose first two coordinates are the result's; there is one such entry for every
  pair of coordinates on the two reduced axes, so the sum is the double sum over those pairs. On the extended reals
  addition is commutative and associative, and the re-indexing is a bijection of finite index sets: no finiteness of
  the entries is asked.
-/
import Idealize.ShloMosaic.PureOps.Ideal
import Idealize.ShloMosaic.PureOps.Ideal.Laws
import Idealize.ShloMosaic.PureOps.Reduce
import Idealize.ShloMosaic.Lib.ValueIdx

noncomputable section

open scoped BigOperators

namespace Cert.KernelIdeal.SEValue

open Idealize.ShloMosaic Idealize.ShloMosaic.ValueIdx

/-- Dropping the two reduced axes of `(u, c, h, w)` leaves `(u, c)`. -/
theorem drop_window {n0 n1 n2 n3 : ℕ} (hr : (⟨4, ![n0, n1, n2, n3]⟩ : Shape).Reduces [2, 3] ⟨2, ![n0, n1]⟩)
    (u : Fin n0) (c : Fin n1) (h : Fin n2) (w : Fin n3) : hr.drop (ix4 u c h w) = ix2 u c := by
  funext b
  apply Fin.ext
  match b with
  | ⟨0, _⟩ => rfl
  | ⟨1, _⟩ => rfl

/-- The first two coordinates of an index are those of what it drops to. -/
theorem drop_window_coords {n0 n1 n2 n3 : ℕ} (hr : (⟨4, ![n0, n1, n2, n3]⟩ : Shape).Reduces [2, 3] ⟨2, ![n0, n1]⟩)
    (i : (⟨4, ![n0, n1, n2, n3]⟩ : Shape).Idx) : hr.drop i = ix2 (i 0) (i 1) := by
  funext b
  apply Fin.ext
  match b with
  | ⟨0, _⟩ => rfl
  | ⟨1, _⟩ => rfl

/-- THE WINDOW SUM: the reduction over axes 2 and 3 at `(u, c)` is the double sum of the entries `(u, c, h, w)`. -/
theorem reduceAdd_window {n0 n1 n2 n3 : ℕ} (hr : (⟨4, ![n0, n1, n2, n3]⟩ : Shape).Reduces [2, 3] ⟨2, ![n0, n1]⟩)
    (x : (⟨4, ![n0, n1, n2, n3]⟩ : Shape).Idx → EReal) (u : Fin n0) (c : Fin n1) :
    Ideal.reduceAdd hr x (ix2 u c) = ∑ h : Fin n2, ∑ w : Fin n3, x (ix4 u c h w) := by
  unfold Ideal.reduceAdd
  rw [← Fintype.sum_prod_type']
  symm
  refine Finset.sum_bij (fun p _ => ix4 u c p.1 p.2) (fun p _ => ?_) (fun p _ q _ e => ?_) (fun i hi => ?_) (fun _ _ => rfl)
  · rw [Finset.mem_filter]
    exact ⟨Finset.mem_univ _, drop_window hr u c p.1 p.2⟩
  · have e2 : p.1 = q.1 := congrFun e 2
    have e3 : p.2 = q.2 := congrFun e 3
    exact Prod.ext e2 e3
  · have hd : hr.drop i = ix2 u c := (Finset.mem_filter.mp hi).2
    rw [drop_window_coords hr i] at hd
    have h0 : i 0 = u := congrFun hd 0
    have h1 : i 1 = c := congrFun hd 1
    subst h0 h1
    exact ⟨(i 2, i 3), Finset.mem_univ _, (eq_ix4 i).symm⟩

/-- A float `multi_reduction <add>` over axes 2 and 3, read at the ideal values, is that double sum. -/
theorem multiReduction_add_window {n0 n1 n2 n3 : ℕ} {φ : FTy} (src : FVec Ideal ⟨4, ![n0, n1, n2, n3]⟩ φ)
    (acc : BitVec φ.bits) (hr : (⟨4, ![n0, n1, n2, n3]⟩ : Shape).Reduces [2, 3] ⟨2, ![n0, n1]⟩)
    (hφ : FKind.Formats φ) (hacc : acc = FKind.add.neutral φ hφ) (u : Fin n0) (c : Fin n1) :
    multiReduction .add [2, 3] ⟨2, ![n0, n1]⟩ src acc hr hφ hacc (ix2 u c)
      = ∑ h : Fin n2, ∑ w : Fin n3, src (ix4 u c h w) :=
  reduceAdd_window hr src u c

end Cert.KernelIdeal.SEValue

end
-- ==== Proof.KernelLayout.lean ====
/-
  Two layout operations read at an index given by coordinates: how a row of per-channel values is spread over the
  channels' windows.

  * A `[1, a]` row cast to `[1, a, 1, 1]` reads, at `(u, i, p, q)`, the row's entry `i`: the unit coordinates carry
    nothing, and both indices have row-major position `i`.
  * A `[1, a, 1, 1]` array broadcast to `[1, a, b, c]` reads, at `(u, i, h, w)`, its entry `(0, i, 0, 0)`: every
    window position of channel `i` sees the channel's one value.
-/
import Idealize.ShloMosaic.Lib.Pipeline.Value
import Idealize.ShloMosaic.Lib.ValueIdx

noncomputable section

namespace Cert.KernelIdeal.SEValue

open Idealize.ShloMosaic Idealize.ShloMosaic.ValueIdx

variable {α : Type}

/-- A `[1, a]` row cast to `[1, a, 1, 1]` reads, at `(u, i, p, q)`, the row at `(0, i)`. -/
theorem shapeCast_1a_1a11_apply {a : ℕ} (x : (⟨2, ![1, a]⟩ : Shape).Idx → α)
    (h : (⟨2, ![1, a]⟩ : Shape).ShapeCasts ⟨4, ![1, a, 1, 1]⟩) (u : Fin 1) (i : Fin a) (p q : Fin 1) :
    shapeCast ⟨4, ![1, a, 1, 1]⟩ x h (ix4 u i p q) = x (ix2 (0 : Fin 1) i) :=
  shapeCast_apply x h _ _ (by
    have hu : u.val = 0 := by omega
    have hp : p.val = 0 := by omega
    have hq : q.val = 0 := by omega
    rw [Shape.rowMajor_val_two, Shape.rowMajor_val_four]
    show 0 * a + i.val = ((u.val * a + i.val) * 1 + p.val) * 1 + q.val
    rw [hu, hp, hq]
    omega)

/-- A `[1, a, 1, 1]` array broadcast to `[1, a, b, c]` reads, at `(u, i, h, w)`, the operand at `(0, i, 0, 0)`. -/
theorem broadcastTo_1a11_1abc_apply {a b c : ℕ} (v : (⟨4, ![1, a, 1, 1]⟩ : Shape).Idx → α)
    (hb : (⟨4, ![1, a, 1, 1]⟩ : Shape).Broadcasts ⟨4, ![1, a, b, c]⟩) (u : Fin 1) (i : Fin a) (h : Fin b) (w : Fin c) :
    broadcastTo ⟨4, ![1, a, b, c]⟩ v hb (ix4 u i h w) = v (ix4 (0 : Fin 1) i (0 : Fin 1) (0 : Fin 1)) := by
  refine broadcastTo_apply v hb (ix4 u i h w) (ix4 (0 : Fin 1) i (0 : Fin 1) (0 : Fin 1)) fun ax => ?_
  match ax with
  | ⟨0, _⟩ => rfl
  | ⟨1, _⟩ =>
    show i.val = if a = 1 then 0 else i.val
    split
    · have := i.isLt; omega
    · rfl
  | ⟨2, _⟩ => rfl
  | ⟨3, _⟩ => rfl

end Cert.KernelIdeal.SEValue

end
-- ==== Proof.LibPlainDot.lean ====
/-
  A plain matrix product read at an index.

  For the dimension numbers of an `M×K` by `K×N` product (`DotDims.plain`: the left operand contracted on its second
  axis, the right one on its first, no batch axis), the sum over the contraction index of the operands' products at
  result index `(i, j)` is `Σ_k l[i,k]·r[k,j]` over `k : Fin K`. Stated for the sum itself, so that it serves a
  kernel's matrix product into a zero accumulator and a host's `dot_general` alike.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction shape of a plain product has one axis. -/
theorem plain_contr_rank (M K N : Nat) : (DotDims.plain M K N).contr.rank = 1 := rfl

/-- The left operand's index at result `(i, j)` and contraction position `k` is `(i, k)`. -/
theorem plain_lhsIdx (M K N : Nat) (i : Fin M) (j : Fin N) (k : Fin K) :
    (DotDims.plain M K N).lhsIdx (ix2 i j) ((contrEquiv1 (DotDims.plain M K N) K rfl rfl).symm k) = ix2 i k := by
  funext a
  refine Fin.ext ?_
  match a with
  | ⟨0, _⟩ => rfl
  | ⟨1, _⟩ =>
    show (((contrEquiv1 (DotDims.plain M K N) K rfl rfl).symm k) ⟨0, (Nat.one_pos : 0 < 1)⟩ : ℕ) = k.val
    exact contrEquiv1_symm_val (DotDims.plain M K N) K rfl rfl k

/-- The right operand's index at result `(i, j)` and contraction position `k` is `(k, j)`. -/
theorem plain_rhsIdx (M K N : Nat) (i : Fin M) (j : Fin N) (k : Fin K) :
    (DotDims.plain M K N).rhsIdx (ix2 i j) ((contrEquiv1 (DotDims.plain M K N) K rfl rfl).symm k) = ix2 k j := by
  funext a
  refine Fin.ext ?_
  match a with
  | ⟨0, _⟩ =>
    show (((contrEquiv1 (DotDims.plain M K N) K rfl rfl).symm k) ⟨0, (Nat.one_pos : 0 < 1)⟩ : ℕ) = k.val
    exact contrEquiv1_symm_val (DotDims.plain M K N) K rfl rfl k
  | ⟨1, _⟩ => rfl

/-- THE PLAIN PRODUCT'S SUM at `(i, j)`: over `k : Fin K`, of `l[i,k]·r[k,j]`. -/
theorem plain_sum (M K N : Nat) (l : (⟨2, ![M, K]⟩ : Shape).Idx → EReal) (r : (⟨2, ![K, N]⟩ : Shape).Idx → EReal)
    (i : Fin M) (j : Fin N) :
    (∑ q : (DotDims.plain M K N).contr.Idx,
        l ((DotDims.plain M K N).lhsIdx (ix2 i j) q) * r ((DotDims.plain M K N).rhsIdx (ix2 i j) q))
      = ∑ k : Fin K, l (ix2 i k) * r (ix2 k j) := by
  rw [← Equiv.sum_comp (contrEquiv1 (DotDims.plain M K N) K rfl rfl).symm]
  exact Finset.sum_congr rfl fun k _ => by rw [plain_lhsIdx, plain_rhsIdx]

/-- A host `dot_general` with the plain dimension numbers, at the ideal values, read at `(i, j)`. -/
theorem plain_dotGeneral_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    Host.dotGeneral (DotDims.plain M K N) prec l r (ix2 i j) = ∑ k : Fin K, l (ix2 i k) * r (ix2 k j) :=
  (Ideal.dotGeneral_apply (DotDims.plain M K N) prec _ l r (ix2 i j)).trans (plain_sum M K N l r i j)

/-- A kernel's matrix product with the plain dimension numbers into the zero splat, at the ideal values, read at `(i, j)`. -/
theorem plain_matmul_zero_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    matmul (DotDims.plain M K N) prec l r (constant ⟨2, ![M, N]⟩ .f32 0x00000000#32) (ix2 i j)
      = ∑ k : Fin K, l (ix2 i k) * r (ix2 k j) :=
  (Ideal.matmul_constant_zero_apply (DotDims.plain M K N) prec l r (ix2 i j)).trans (plain_sum M K N l r i j)

end Cert.Lib

end
-- ==== Proof.KernelPayload.lean ====
/-
  The body's arithmetic read at one index of the block it stores.

  The body computes, from a batch element's block of activations, one row of 256 gates — the window sums scaled to
  averages, a dense layer to 64 hidden units with the nonlinearity `a · σ(a)`, a dense layer back to 256 channels,
  the logistic function — and scales every entry of the second block's window `c` by gate `c`. Each stage is named
  here as a row of its own, read at an index as the specification's function of the whole arrays, given what the
  loaded blocks are as pieces of those arrays: the activations' and the scaled array's blocks are batch element `b`,
  the two weight blocks are the weight matrices transposed, the two bias rows are the bias vectors.
-/
import proofs.«171288_g2000302560019453_pallasbulk_905_8_alg».proof.Proof.Gen.KernelIdeal.Skeleton
import proofs.«171288_g2000302560019453_pallasbulk_905_8_alg».proof.Proof.Spec
import proofs.«171288_g2000302560019453_pallasbulk_905_8_alg».proof.Proof.KernelWindowSum
import proofs.«171288_g2000302560019453_pallasbulk_905_8_alg».proof.Proof.KernelLayout
import proofs.«171288_g2000302560019453_pallasbulk_905_8_alg».proof.Proof.LibPlainDot
import Idealize.ShloMosaic.Lib.Pipeline.Value
import Idealize.ShloMosaic.Lib.ValueIdx
import Idealize.ShloMosaic.PureOps.Ideal.Laws

noncomputable section

open scoped BigOperators

namespace Cert.KernelIdeal.SEValue

open Cert.KernelIdeal Cert.KernelIdeal.Gen Idealize.ShloMosaic Idealize.ShloMosaic.ValueIdx

/-! ## The stages, as rows -/

/-- The pooled row: each channel's window sum times the scale. -/
def poolRow (v0 : FVec Ideal S1x256x56x56 .f32) : FVec Ideal S1x256 .f32 :=
  mulf (multiReduction .add [2, 3] S1x256 v0 0x00000000#32 reduces_S1x256x56x56_S1x256 (.inl rfl) rfl)
    (broadcast S1x256 (Scalar.ofBits (F := Ideal) .f32 0x39A72F05#32))

/-- The first dense layer before its nonlinearity: the pooled row times the first weight block, plus the first bias row. -/
def pre1Row (v0 : FVec Ideal S1x256x56x56 .f32) (v4 : FVec Ideal S256x64 .f32) (v7 : FVec Ideal S1x64 .f32) :
    FVec Ideal S1x64 .f32 :=
  addf (matmul dot_S1x256_S256x64_S1x64_1_0_0_1_n_n none (poolRow v0) (shapeCast S256x64 v4 shapeCasts_S256x64_S256x64)
      (constant (F := Ideal) S1x64 .f32 0x00000000#32))
    (shapeCast S1x64 v7 shapeCasts_S1x64_S1x64)

/-- The hidden row: `a · σ(a)` of the first layer. -/
def hiddenRow (v0 : FVec Ideal S1x256x56x56 .f32) (v4 : FVec Ideal S256x64 .f32) (v7 : FVec Ideal S1x64 .f32) :
    FVec Ideal S1x64 .f32 :=
  mulf (pre1Row v0 v4 v7) (logistic (pre1Row v0 v4 v7))

/-- The second dense layer before its nonlinearity. -/
def pre2Row (v0 : FVec Ideal S1x256x56x56 .f32) (v4 : FVec Ideal S256x64 .f32) (v7 : FVec Ideal S1x64 .f32)
    (v12 : FVec Ideal S64x256 .f32) (v15 : FVec Ideal S1x256 .f32) : FVec Ideal S1x256 .f32 :=
  addf (matmul dot_S1x64_S64x256_S1x256_1_0_0_1_n_n none (hiddenRow v0 v4 v7) (shapeCast S64x256 v12 shapeCasts_S64x256_S64x256)
      (constant (F := Ideal) S1x256 .f32 0x00000000#32))
    (shapeCast S1x256 v15 shapeCasts_S1x256_S1x256)

/-- The row of gates. -/
def gateRow (v0 : FVec Ideal S1x256x56x56 .f32) (v4 : FVec Ideal S256x64 .f32) (v7 : FVec Ideal S1x64 .f32)
    (v12 : FVec Ideal S64x256 .f32) (v15 : FVec Ideal S1x256 .f32) : FVec Ideal S1x256 .f32 :=
  logistic (pre2Row v0 v4 v7 v12 v15)

/-- The body's stored value is the row of gates, one per channel, spread over the channels' windows, times the second block. -/
theorem pay_eq_stages (v0 : FVec Ideal S1x256x56x56 .f32) (v4 : FVec Ideal S256x64 .f32) (v7 : FVec Ideal S1x64 .f32)
    (v12 : FVec Ideal S64x256 .f32) (v15 : FVec Ideal S1x256 .f32) (v20 : FVec Ideal S1x256x56x56 .f32) :
    k0_pay1 (F := Ideal) v0 v4 v7 v12 v15 v20
      = mulf (broadcastTo S1x256x56x56 (shapeCast S1x256x1x1 (gateRow v0 v4 v7 v12 v15) shapeCasts_S1x256_S1x256x1x1)
          broadcasts_S1x256x1x1_S1x256x56x56) v20 := rfl

/-! ## The stages at an index, as the specification's functions of the whole arrays -/

section AtIndex

variable (X Z : FVec Ideal Cert.SE.SX .f32) (W1 : FVec Ideal Cert.SE.SW1 .f32) (B1 : FVec Ideal Cert.SE.SB1 .f32)
  (W2 : FVec Ideal Cert.SE.SW2 .f32) (B2 : FVec Ideal Cert.SE.SB2 .f32) (b : Fin 32)
variable (v0 v20 : FVec Ideal S1x256x56x56 .f32) (v4 : FVec Ideal S256x64 .f32) (v7 : FVec Ideal S1x64 .f32)
  (v12 : FVec Ideal S64x256 .f32) (v15 : FVec Ideal S1x256 .f32)

/-- The pooled row at channel `c` is the pooled activation of `(b, c)`. -/
theorem poolRow_apply (hx : ∀ (c : Fin 256) (h w : Fin 56), v0 (ix4 (0 : Fin 1) c h w) = X (ix4 b c h w)) (c : Fin 256) :
    poolRow v0 (ix2 (0 : Fin 1) c) = Cert.SE.pooled X b c := by
  unfold poolRow Cert.SE.pooled Cert.SE.windowSum
  refine (mulf_apply _ _ _).trans ?_
  refine congrArg (· * Cert.SE.invHW) ?_
  refine (multiReduction_add_window v0 _ _ _ _ (0 : Fin 1) c).trans ?_
  exact Finset.sum_congr rfl fun h _ => Finset.sum_congr rfl fun w _ => hx c h w

/-- The first layer at hidden unit `k`. -/
theorem pre1Row_apply (hx : ∀ (c : Fin 256) (h w : Fin 56), v0 (ix4 (0 : Fin 1) c h w) = X (ix4 b c h w))
    (hw1 : ∀ (c : Fin 256) (k : Fin 64), v4 (ix2 c k) = W1 (ix2 k c))
    (hb1 : ∀ k : Fin 64, v7 (ix2 (0 : Fin 1) k) = B1 (ix1 k)) (k : Fin 64) :
    pre1Row v0 v4 v7 (ix2 (0 : Fin 1) k) = Cert.SE.pre1 X W1 B1 b k := by
  unfold pre1Row Cert.SE.pre1
  rw [shapeCast_self, shapeCast_self]
  refine (addf_apply _ _ _).trans ?_
  rw [hb1 k]
  refine congrArg (· + B1 (ix1 k)) ?_
  refine (Cert.Lib.plain_matmul_zero_apply 1 256 64 none (poolRow v0) v4 (0 : Fin 1) k).trans ?_
  exact Finset.sum_congr rfl fun c _ => by rw [poolRow_apply X b v0 hx c, hw1 c k]

/-- The hidden row at unit `k`. -/
theorem hiddenRow_apply (hx : ∀ (c : Fin 256) (h w : Fin 56), v0 (ix4 (0 : Fin 1) c h w) = X (ix4 b c h w))
    (hw1 : ∀ (c : Fin 256) (k : Fin 64), v4 (ix2 c k) = W1 (ix2 k c))
    (hb1 : ∀ k : Fin 64, v7 (ix2 (0 : Fin 1) k) = B1 (ix1 k)) (k : Fin 64) :
    hiddenRow v0 v4 v7 (ix2 (0 : Fin 1) k) = Cert.SE.hidden X W1 B1 b k := by
  unfold hiddenRow Cert.SE.hidden
  show pre1Row v0 v4 v7 (ix2 (0 : Fin 1) k) * Ideal.logistic (pre1Row v0 v4 v7 (ix2 (0 : Fin 1) k)) = _
  rw [pre1Row_apply X W1 B1 b v0 v4 v7 hx hw1 hb1 k]

/-- The second layer at channel `c`. -/
theorem pre2Row_apply (hx : ∀ (c : Fin 256) (h w : Fin 56), v0 (ix4 (0 : Fin 1) c h w) = X (ix4 b c h w))
    (hw1 : ∀ (c : Fin 256) (k : Fin 64), v4 (ix2 c k) = W1 (ix2 k c))
    (hb1 : ∀ k : Fin 64, v7 (ix2 (0 : Fin 1) k) = B1 (ix1 k))
    (hw2 : ∀ (k : Fin 64) (c : Fin 256), v12 (ix2 k c) = W2 (ix2 c k))
    (hb2 : ∀ c : Fin 256, v15 (ix2 (0 : Fin 1) c) = B2 (ix1 c)) (c : Fin 256) :
    pre2Row v0 v4 v7 v12 v15 (ix2 (0 : Fin 1) c) = Cert.SE.pre2 X W1 B1 W2 B2 b c := by
  unfold pre2Row Cert.SE.pre2
  rw [shapeCast_self, shapeCast_self]
  refine (addf_apply _ _ _).trans ?_
  rw [hb2 c]
  refine congrArg (· + B2 (ix1 c)) ?_
  refine (Cert.Lib.plain_matmul_zero_apply 1 64 256 none (hiddenRow v0 v4 v7) v12 (0 : Fin 1) c).trans ?_
  exact Finset.sum_congr rfl fun k _ => by rw [hiddenRow_apply X W1 B1 b v0 v4 v7 hx hw1 hb1 k, hw2 k c]

/-- The gate of channel `c`. -/
theorem gateRow_apply (hx : ∀ (c : Fin 256) (h w : Fin 56), v0 (ix4 (0 : Fin 1) c h w) = X (ix4 b c h w))
    (hw1 : ∀ (c : Fin 256) (k : Fin 64), v4 (ix2 c k) = W1 (ix2 k c))
    (hb1 : ∀ k : Fin 64, v7 (ix2 (0 : Fin 1) k) = B1 (ix1 k))
    (hw2 : ∀ (k : Fin 64) (c : Fin 256), v12 (ix2 k c) = W2 (ix2 c k))
    (hb2 : ∀ c : Fin 256, v15 (ix2 (0 : Fin 1) c) = B2 (ix1 c)) (c : Fin 256) :
    gateRow v0 v4 v7 v12 v15 (ix2 (0 : Fin 1) c) = Cert.SE.gate X W1 B1 W2 B2 b c := by
  unfold gateRow Cert.SE.gate
  show Ideal.logistic (pre2Row v0 v4 v7 v12 v15 (ix2 (0 : Fin 1) c)) = _
  rw [pre2Row_apply X W1 B1 W2 B2 b v0 v4 v7 v12 v15 hx hw1 hb1 hw2 hb2 c]

/-- THE STORED VALUE AT `(0, c, h, w)`: the specification's result at `(b, c, h, w)`. -/
theorem payload_apply (hx : ∀ (c : Fin 256) (h w : Fin 56), v0 (ix4 (0 : Fin 1) c h w) = X (ix4 b c h w))
    (hw1 : ∀ (c : Fin 256) (k : Fin 64), v4 (ix2 c k) = W1 (ix2 k c))
    (hb1 : ∀ k : Fin 64, v7 (ix2 (0 : Fin 1) k) = B1 (ix1 k))
    (hw2 : ∀ (k : Fin 64) (c : Fin 256), v12 (ix2 k c) = W2 (ix2 c k))
    (hb2 : ∀ c : Fin 256, v15 (ix2 (0 : Fin 1) c) = B2 (ix1 c))
    (hz : ∀ (c : Fin 256) (h w : Fin 56), v20 (ix4 (0 : Fin 1) c h w) = Z (ix4 b c h w))
    (c : Fin 256) (h w : Fin 56) :
    k0_pay1 (F := Ideal) v0 v4 v7 v12 v15 v20 (ix4 (0 : Fin 1) c h w) = Cert.SE.G X Z W1 B1 W2 B2 (ix4 b c h w) := by
  rw [pay_eq_stages, Cert.SE.G_apply]
  refine (mulf_apply _ _ _).trans ?_
  rw [broadcastTo_1a11_1abc_apply, shapeCast_1a_1a11_apply,
    gateRow_apply X W1 B1 W2 B2 b v0 v4 v7 v12 v15 hx hw1 hb1 hw2 hb2 c, hz c h w]

end AtIndex

end Cert.KernelIdeal.SEValue

end
-- ==== Proof.KernelHostArgs.lean ====
/-
  The four arrays the host writes before the region, read at an index.

  Before the region the host transposes the two weight matrices and adds a leading unit axis to the two bias vectors;
  the region's windows 2 to 5 stage these four arrays. Read at an index: the transposed first weight matrix at
  `(c, k)` is the argument at `(k, c)`, the transposed second one at `(k, c)` is the argument at `(c, k)`, and a bias
  row at `(0, i)` is the bias vector at `i`.
-/
import proofs.«171288_g2000302560019453_pallasbulk_905_8_alg».proof.Proof.Gen.KernelIdeal.Frame
import Idealize.ShloMosaic.Lib.StableHlo.Run
import Idealize.ShloMosaic.Lib.ValueIdx
import Idealize.ShloMosaic.Lib.ValueLayout

noncomputable section

namespace Cert.KernelIdeal.SEValue

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ)

/-- Window 2's array is the first weight matrix transposed. -/
theorem V_w1_eq (c : Dev nD) :
    (V m c main_v0 : S256x64.Idx → EReal)
      = transpose S256x64 [1, 0] (m ((c : Thread nD τ).loc main_arg2) : S64x256.Idx → EReal) transposes_S64x256_S256x64_1_0 := by
  dsimp only [Gen.V, Gen.hostOps0]; after_results

/-- … so at `(ch, k)` it is the argument at `(k, ch)`. -/
theorem V_w1_apply (c : Dev nD) (ch : Fin 256) (k : Fin 64) :
    (V m c main_v0 : S256x64.Idx → EReal) (ix2 ch k) = (m ((c : Thread nD τ).loc main_arg2) : S64x256.Idx → EReal) (ix2 k ch) := by
  rw [V_w1_eq]; exact transpose_ix2_apply _ _ ch k

/-- Window 4's array is the second weight matrix transposed. -/
theorem V_w2_eq (c : Dev nD) :
    (V m c main_v1 : S64x256.Idx → EReal)
      = transpose S64x256 [1, 0] (m ((c : Thread nD τ).loc main_arg4) : S256x64.Idx → EReal) transposes_S256x64_S64x256_1_0 := by
  dsimp only [Gen.V, Gen.hostOps0]; after_results

/-- … so at `(k, ch)` it is the argument at `(ch, k)`. -/
theorem V_w2_apply (c : Dev nD) (k : Fin 64) (ch : Fin 256) :
    (V m c main_v1 : S64x256.Idx → EReal) (ix2 k ch) = (m ((c : Thread nD τ).loc main_arg4) : S256x64.Idx → EReal) (ix2 ch k) := by
  rw [V_w2_eq]; exact transpose_ix2_apply _ _ k ch

/-- Window 3's array is the first bias vector as one row. -/
theorem V_b1_eq (c : Dev nD) :
    (V m c main_v2 : S1x64.Idx → EReal)
      = shapeCast S1x64 (m ((c : Thread nD τ).loc main_arg3) : S64.Idx → EReal) shapeCasts_S64_S1x64 := by
  dsimp only [Gen.V, Gen.hostOps0]; after_results; rfl

/-- … so at `(0, k)` it is the argument at `k`. -/
theorem V_b1_apply (c : Dev nD) (u : Fin 1) (k : Fin 64) :
    (V m c main_v2 : S1x64.Idx → EReal) (ix2 u k) = (m ((c : Thread nD τ).loc main_arg3) : S64.Idx → EReal) (ix1 k) := by
  rw [V_b1_eq]; exact shapeCast_a_1a_apply _ _ u k

/-- Window 5's array is the second bias vector as one row. -/
theorem V_b2_eq (c : Dev nD) :
    (V m c main_v3 : S1x256.Idx → EReal)
      = shapeCast S1x256 (m ((c : Thread nD τ).loc main_arg5) : S256.Idx → EReal) shapeCasts_S256_S1x256 := by
  dsimp only [Gen.V, Gen.hostOps0]; after_results; rfl

/-- … so at `(0, ch)` it is the argument at `ch`. -/
theorem V_b2_apply (c : Dev nD) (u : Fin 1) (ch : Fin 256) :
    (V m c main_v3 : S1x256.Idx → EReal) (ix2 u ch) = (m ((c : Thread nD τ).loc main_arg5) : S256.Idx → EReal) (ix1 ch) := by
  rw [V_b2_eq]; exact shapeCast_a_1a_apply _ _ u ch

end Cert.KernelIdeal.SEValue

end
-- ==== Proof.KernelBlocks.lean ====
/-
  From the blocks to the array.

  The grid has one point per batch element. At point `t` the windows of the activations, of the scaled array and of
  the result hold batch element `t` (block index `t` on the batch axis, the other three axes whole), and the four
  small windows hold their whole arrays. So what point `t` writes back is batch element `t` of the gate function of
  the six argument arrays; the 32 blocks cover the result array, which therefore ends holding that function.
-/
import proofs.«171288_g2000302560019453_pallasbulk_905_8_alg».proof.Proof.Gen.KernelIdeal.Value
import proofs.«171288_g2000302560019453_pallasbulk_905_8_alg».proof.Proof.Spec
import proofs.«171288_g2000302560019453_pallasbulk_905_8_alg».proof.Proof.KernelPayload
import proofs.«171288_g2000302560019453_pallasbulk_905_8_alg».proof.Proof.KernelHostArgs
import Idealize.ShloMosaic.Lib.Pipeline.Value
import Idealize.ShloMosaic.Lib.ValueIdx

noncomputable section

namespace Cert.KernelIdeal.SEValue

open Cert.KernelIdeal Cert.KernelIdeal.Gen Cert.KernelIdeal.Value Idealize.ShloMosaic Idealize.ShloMosaic.TcCoe
open Idealize.SL.Sem Idealize.ShloMosaic.ValueIdx
open Idealize.ShloMosaic.Pipeline (Dat)

variable (m : (ℓ : Loc nD τ sig) → Buf (Elt Ideal) ℓ)

theorem zero4 : (![0, 0, 0, 0] : Fin 4 → Nat) = fun _ => 0 := funext fun a => by fin_cases a <;> rfl
theorem zero2 : (![0, 0] : Fin 2 → Nat) = fun _ => 0 := funext fun a => by fin_cases a <;> rfl

/-- The batch element of a grid point. -/
def batchOf (t : Fin cfg0.N) : Fin 32 := ⟨t.val, Nat.lt_of_lt_of_eq t.isLt (show cfg0.N = 32 from N_0)⟩

/-- The printed index maps, decided over the grid: the three large windows move along the batch axis with the
    point and stay at block 0 on the other axes; the four small windows stay at block 0. -/
theorem idx_facts : ∀ t : Fin cfg0.N,
    (win0_0.index t (0 : Fin 4) = t.val ∧ win0_0.index t (1 : Fin 4) = 0 ∧ win0_0.index t (2 : Fin 4) = 0 ∧ win0_0.index t (3 : Fin 4) = 0)
    ∧ (win0_1.index t (0 : Fin 4) = t.val ∧ win0_1.index t (1 : Fin 4) = 0 ∧ win0_1.index t (2 : Fin 4) = 0 ∧ win0_1.index t (3 : Fin 4) = 0)
    ∧ (win0_6.index t (0 : Fin 4) = t.val ∧ win0_6.index t (1 : Fin 4) = 0 ∧ win0_6.index t (2 : Fin 4) = 0 ∧ win0_6.index t (3 : Fin 4) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0) :=
  (by decide +kernel : ∀ t : Fin grid0.N, _)

/-! ## The input blocks at a point, read at an index -/

/-- The activations' block at point `t` is batch element `t` of the first argument. -/
theorem blk_x (c : Dev nD) (t : Fin cfg0.N) (ch : Fin 256) (h w : Fin 56) :
    (iblk m c 0 t : Vec Ideal S1x256x56x56 .f32) (ix4 (0 : Fin 1) ch h w)
      = (m ((c : Thread nD τ).loc main_arg0) : S32x256x56x56.Idx → EReal) (ix4 (batchOf t) ch h w) := by
  obtain ⟨⟨e0, e1, e2, e3⟩, -⟩ := idx_facts t
  show V m c main_arg0 (((cfg0.win 0).blk t).view.emb (ix4 (0 : Fin 1) ch h w)) = _
  rw [V_main_arg0]
  refine congrArg _ (funext fun a => Fin.ext ?_)
  match a with
  | ⟨0, _⟩ => show win0_0.index t (0 : Fin 4) * 1 + 1 * 0 = t.val; omega
  | ⟨1, _⟩ => show win0_0.index t (1 : Fin 4) * 256 + 1 * ch.val = ch.val; omega
  | ⟨2, _⟩ => show win0_0.index t (2 : Fin 4) * 56 + 1 * h.val = h.val; omega
  | ⟨3, _⟩ => show win0_0.index t (3 : Fin 4) * 56 + 1 * w.val = w.val; omega

/-- The scaled array's block at point `t` is batch element `t` of the second argument. -/
theorem blk_z (c : Dev nD) (t : Fin cfg0.N) (ch : Fin 256) (h w : Fin 56) :
    (iblk m c 1 t : Vec Ideal S1x256x56x56 .f32) (ix4 (0 : Fin 1) ch h w)
      = (m ((c : Thread nD τ).loc main_arg1) : S32x256x56x56.Idx → EReal) (ix4 (batchOf t) ch h w) := by
  obtain ⟨-, ⟨e0, e1, e2, e3⟩, -⟩ := idx_facts t
  show V m c main_arg1 (((cfg0.win 1).blk t).view.emb (ix4 (0 : Fin 1) ch h w)) = _
  rw [V_main_arg1]
  refine congrArg _ (funext fun a => Fin.ext ?_)
  match a with
  | ⟨0, _⟩ => show win0_1.index t (0 : Fin 4) * 1 + 1 * 0 = t.val; omega
  | ⟨1, _⟩ => show win0_1.index t (1 : Fin 4) * 256 + 1 * ch.val = ch.val; omega
  | ⟨2, _⟩ => show win0_1.index t (2 : Fin 4) * 56 + 1 * h.val = h.val; omega
  | ⟨3, _⟩ => show win0_1.index t (3 : Fin 4) * 56 + 1 * w.val = w.val; omega

/-- The first weight block is the first weight matrix transposed, whole. -/
theorem blk_w1 (c : Dev nD) (t : Fin cfg0.N) (ch : Fin 256) (k : Fin 64) :
    (iblk m c 2 t : Vec Ideal S256x64 .f32) (ix2 ch k)
      = (m ((c : Thread nD τ).loc main_arg2) : S64x256.Idx → EReal) (ix2 k ch) := by
  obtain ⟨-, -, -, ⟨e0, e1⟩, -⟩ := idx_facts t
  show (V m c main_v0 : S256x64.Idx → EReal) (((cfg0.win 2).blk t).view.emb (ix2 ch k)) = _
  have e : ((cfg0.win 2).blk t).view.emb (ix2 ch k) = (ix2 ch k : S256x64.Idx) := funext fun a => Fin.ext (by
    match a with
    | ⟨0, _⟩ => show win0_2.index t (0 : Fin 2) * 256 + 1 * ch.val = ch.val; omega
    | ⟨1, _⟩ => show win0_2.index t (1 : Fin 2) * 64 + 1 * k.val = k.val; omega)
  rw [e]
  exact V_w1_apply m c ch k

/-- The first bias block is the first bias vector as one row. -/
theorem blk_b1 (c : Dev nD) (t : Fin cfg0.N) (k : Fin 64) :
    (iblk m c 3 t : Vec Ideal S1x64 .f32) (ix2 (0 : Fin 1) k)
      = (m ((c : Thread nD τ).loc main_arg3) : S64.Idx → EReal) (ix1 k) := by
  obtain ⟨-, -, -, -, ⟨e0, e1⟩, -⟩ := idx_facts t
  show (V m c main_v2 : S1x64.Idx → EReal) (((cfg0.win 3).blk t).view.emb (ix2 (0 : Fin 1) k)) = _
  have e : ((cfg0.win 3).blk t).view.emb (ix2 (0 : Fin 1) k) = (ix2 (0 : Fin 1) k : S1x64.Idx) := funext fun a => Fin.ext (by
    match a with
    | ⟨0, _⟩ => show win0_3.index t (0 : Fin 2) * 1 + 1 * 0 = 0; omega
    | ⟨1, _⟩ => show win0_3.index t (1 : Fin 2) * 64 + 1 * k.val = k.val; omega)
  rw [e]
  exact V_b1_apply m c 0 k

/-- The second weight block is the second weight matrix transposed, whole. -/
theorem blk_w2 (c : Dev nD) (t : Fin cfg0.N) (k : Fin 64) (ch : Fin 256) :
    (iblk m c 4 t : Vec Ideal S64x256 .f32) (ix2 k ch)
      = (m ((c : Thread nD τ).loc main_arg4) : S256x64.Idx → EReal) (ix2 ch k) := by
  obtain ⟨-, -, -, -, -, ⟨e0, e1⟩, -⟩ := idx_facts t
  show (V m c main_v1 : S64x256.Idx → EReal) (((cfg0.win 4).blk t).view.emb (ix2 k ch)) = _
  have e : ((cfg0.win 4).blk t).view.emb (ix2 k ch) = (ix2 k ch : S64x256.Idx) := funext fun a => Fin.ext (by
    match a with
    | ⟨0, _⟩ => show win0_4.index t (0 : Fin 2) * 64 + 1 * k.val = k.val; omega
    | ⟨1, _⟩ => show win0_4.index t (1 : Fin 2) * 256 + 1 * ch.val = ch.val; omega)
  rw [e]
  exact V_w2_apply m c k ch

/-- The second bias block is the second bias vector as one row. -/
theorem blk_b2 (c : Dev nD) (t : Fin cfg0.N) (ch : Fin 256) :
    (iblk m c 5 t : Vec Ideal S1x256 .f32) (ix2 (0 : Fin 1) ch)
      = (m ((c : Thread nD τ).loc main_arg5) : S256.Idx → EReal) (ix1 ch) := by
  obtain ⟨-, -, -, -, -, -, ⟨e0, e1⟩⟩ := idx_facts t
  show (V m c main_v3 : S1x256.Idx → EReal) (((cfg0.win 5).blk t).view.emb (ix2 (0 : Fin 1) ch)) = _
  have e : ((cfg0.win 5).blk t).view.emb (ix2 (0 : Fin 1) ch) = (ix2 (0 : Fin 1) ch : S1x256.Idx) := funext fun a => Fin.ext (by
    match a with
    | ⟨0, _⟩ => show win0_5.index t (0 : Fin 2) * 1 + 1 * 0 = 0; omega
    | ⟨1, _⟩ => show win0_5.index t (1 : Fin 2) * 256 + 1 * ch.val = ch.val; omega)
  rw [e]
  exact V_b2_apply m c 0 ch

/-! ## What a point writes back -/

/-- The gate function of the six argument arrays as launched. -/
abbrev result (c : Dev nD) : FVec Ideal Cert.SE.SX .f32 :=
  Cert.SE.G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- An element of the result's block at point `t` sits at batch element `t`, its other coordinates kept. -/
theorem emb_out (t : Fin cfg0.N) (ch : Fin 256) (h w : Fin 56) :
    ((cfg0.win 6).blk t).view.emb (ix4 (0 : Fin 1) ch h w) = (ix4 (batchOf t) ch h w : S32x256x56x56.Idx) := by
  obtain ⟨-, -, ⟨e0, e1, e2, e3⟩, -⟩ := idx_facts t
  refine funext fun a => Fin.ext ?_
  match a with
  | ⟨0, _⟩ => show win0_6.index t (0 : Fin 4) * 1 + 1 * 0 = t.val; omega
  | ⟨1, _⟩ => show win0_6.index t (1 : Fin 4) * 256 + 1 * ch.val = ch.val; omega
  | ⟨2, _⟩ => show win0_6.index t (2 : Fin 4) * 56 + 1 * h.val = h.val; omega
  | ⟨3, _⟩ => show win0_6.index t (3 : Fin 4) * 56 + 1 * w.val = w.val; omega

/-- WHAT POINT `t` WRITES BACK is block `t` of the gate function of the argument arrays. -/
theorem flushed_eq (c : Dev nD) (t : Fin cfg0.N) :
    (dats m 0 c).flushed 6 t = ((cfg0.win 6).blk t).view.read (Elt Ideal) (result m c) := by
  rw [flushed6]
  unfold out0_6
  rw [View.canon_unit_zero zero4]
  simp only [View.ld_unit_zero (S := S1x256x56x56) zero4, View.ld_unit_zero (S := S256x64) zero2,
    View.ld_unit_zero (S := S1x64) zero2, View.ld_unit_zero (S := S64x256) zero2, View.ld_unit_zero (S := S1x256) zero2]
  funext j
  obtain ⟨u, ch, h, w, rfl⟩ : ∃ (u : Fin 1) (ch : Fin 256) (h w : Fin 56), j = ix4 u ch h w := ⟨j 0, j 1, j 2, j 3, eq_ix4 j⟩
  obtain rfl : u = 0 := Subsingleton.elim _ _
  show k0_pay1 (F := Ideal) (iblk m c 0 t) (iblk m c 2 t) (iblk m c 3 t) (iblk m c 4 t) (iblk m c 5 t) (iblk m c 1 t) (ix4 (0 : Fin 1) ch h w)
    = result m c (((cfg0.win 6).blk t).view.emb (ix4 (0 : Fin 1) ch h w))
  rw [emb_out t ch h w]
  exact payload_apply (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (batchOf t)
    (iblk m c 0 t) (iblk m c 1 t) (iblk m c 2 t) (iblk m c 3 t) (iblk m c 4 t) (iblk m c 5 t)
    (blk_x m c t) (blk_w1 m c t) (blk_b1 m c t) (blk_w2 m c t) (blk_b2 m c t) (blk_z m c t) ch h w

/-! ## The cover, and the array after the run -/

/-- An index of the result array is in point `t`'s block iff each coordinate is in the block's range on its axis. -/
theorem mem_blk (t : Fin cfg0.N) (i : S32x256x56x56.Idx) :
    i ∈ ((cfg0.win 6).blk t).view.set ↔ ∀ a : Fin 4, win0_6.index t a * S1x256x56x56.size a ≤ (i a).val ∧ (i a).val < win0_6.index t a * S1x256x56x56.size a + S1x256x56x56.size a := by
  show i ∈ ((View.whole main_v4).slice (win0_6.rect t)).set ↔ _
  rw [View.set_slice_whole, Rect.mem_set_unit]
  exact Iff.rfl

/-- Every index of the result array is in the block of the point that is its batch coordinate. -/
theorem cover (i : S32x256x56x56.Idx) : ∃ t : Fin cfg0.N, (cfg0.win 6).flush t = true ∧ i ∈ ((cfg0.win 6).blk t).view.set := by
  have h0 : (i 0).val < 32 := (i 0).isLt
  have h1 : (i 1).val < 256 := (i 1).isLt
  have h2 : (i 2).val < 56 := (i 2).isLt
  have h3 : (i 3).val < 56 := (i 3).isLt
  have hN : (i 0).val < cfg0.N := by rw [show cfg0.N = 32 from N_0]; exact h0
  refine ⟨⟨(i 0).val, hN⟩, flush0_6 _, ?_⟩
  obtain ⟨-, -, ⟨e0, e1, e2, e3⟩, -⟩ := idx_facts ⟨(i 0).val, hN⟩
  rw [mem_blk]
  intro a
  match a with
  | ⟨0, _⟩ =>
    show win0_6.index ⟨(i 0).val, hN⟩ (0 : Fin 4) * 1 ≤ (i 0).val ∧ (i 0).val < win0_6.index ⟨(i 0).val, hN⟩ (0 : Fin 4) * 1 + 1
    have e0' : win0_6.index ⟨(i 0).val, hN⟩ (0 : Fin 4) = (i 0).val := e0
    omega
  | ⟨1, _⟩ =>
    show win0_6.index ⟨(i 0).val, hN⟩ (1 : Fin 4) * 256 ≤ (i 1).val ∧ (i 1).val < win0_6.index ⟨(i 0).val, hN⟩ (1 : Fin 4) * 256 + 256
    omega
  | ⟨2, _⟩ =>
    show win0_6.index ⟨(i 0).val, hN⟩ (2 : Fin 4) * 56 ≤ (i 2).val ∧ (i 2).val < win0_6.index ⟨(i 0).val, hN⟩ (2 : Fin 4) * 56 + 56
    omega
  | ⟨3, _⟩ =>
    show win0_6.index ⟨(i 0).val, hN⟩ (3 : Fin 4) * 56 ≤ (i 3).val ∧ (i 3).val < win0_6.index ⟨(i 0).val, hN⟩ (3 : Fin 4) * 56 + 56
    omega

/-- THE RESULT ARRAY after the run is the gate function of the argument arrays. -/
theorem final (c : Dev nD) : (dats m 0 c).arrAt 6 cfg0.N = result m c :=
  (dats m 0 c).arrAt_eq_of_cover 6 (result m c) (fun t _ => flushed_eq m c t) cover

end Cert.KernelIdeal.SEValue

end
-- ==== Proof.KernelValue.lean ====
/-
  The idealized kernel's result array, read as the gate function of the argument arrays.
-/
import proofs.«171288_g2000302560019453_pallasbulk_905_8_alg».proof.Defs
import proofs.«171288_g2000302560019453_pallasbulk_905_8_alg».proof.Proof.Gen.KernelIdeal.Value
import proofs.«171288_g2000302560019453_pallasbulk_905_8_alg».proof.Proof.Spec
import proofs.«171288_g2000302560019453_pallasbulk_905_8_alg».proof.Proof.KernelBlocks
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.SEValue

open Cert.KernelIdeal Cert.KernelIdeal.Gen Idealize.ShloMosaic Idealize.ShloMosaic.TcCoe Idealize.SL.Sem

/-- THE RUN, READ: every weakly fair execution of the idealized kernel's program ends with the result array at the
    gate function of the six argument arrays as launched, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v4)
        = Cert.SE.G (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩) (Cert.KernelIdeal.Value.run_blocks m ρ)

end Cert.KernelIdeal.SEValue

end
-- ==== Proof.RefRun.lean ====
/-
  The reference program's run, keeping its result: every weakly fair execution terminates with the result array at
  what the last stretch of host operations leaves there, and the six argument arrays as launched.

  The program is eight segments — two stretches of host operations (the activation flattened to rows and padded with
  zero columns), the pooling region, three stretches (the two dense layers, the second activation flattened and
  padded, the gate flattened to a column), the gating region, and a last stretch (the padding columns cut away, the
  rows unflattened). The contents of every buffer at each segment boundary are a fold from the launch memory; the
  run's last thread state holds every unscoped buffer at the last boundary's contents, and the final memory is read
  against it, the result array's buffer among them.
-/
import proofs.«171288_g2000302560019453_pallasbulk_905_8_alg».proof.Defs
import proofs.«171288_g2000302560019453_pallasbulk_905_8_alg».proof.Proof.Gen.ReferenceIdeal.Frame

set_option maxRecDepth 16384

noncomputable section

namespace Cert.ReferenceIdeal.SEValue

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the result kept: the result array ends at the last boundary's contents, the arguments as launched. -/
theorem run_last : θ_run defs (onTc (τ := τ) (main (F := F))) ⟨m, fun _ => 0, ρ⟩ (fun r => ∀ c : Dev nD,
      r.2.mem ((c.tc : Thread nD τ).loc main_v35) = W8 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v35 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.ReferenceIdeal.SEValue

end
-- ==== Proof.RefHost.lean ====
/-
  What the reference's host operations leave in the buffers the two regions read, and in the result array.

  Between the launch and the pooling region the first activation is flattened to 8192 rows of 3136 entries and padded
  with 64 zero columns (`padRows`). Between the two regions the pooled sums go through the scale, the two dense layers
  and their nonlinearities, and come out flattened to a column (`gateCol`), while the second activation is flattened
  and padded the same way. After the gating region the padding columns are cut away and the rows unflattened
  (`unflatten`). Each statement reads one buffer through the fold of the host operations down to the launch memory,
  or down to a region's output array.
-/
import proofs.«171288_g2000302560019453_pallasbulk_905_8_alg».proof.Defs
import proofs.«171288_g2000302560019453_pallasbulk_905_8_alg».proof.Proof.Gen.ReferenceIdeal.Frame
import Idealize.ShloMosaic.Lib.StableHlo.Run

set_option maxRecDepth 16384

noncomputable section

namespace Cert.ReferenceIdeal.SEValue

open Cert.ReferenceIdeal Cert.ReferenceIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg)

/-- An activation flattened to rows and padded on the right with 64 columns of the integer zero converted to a float. -/
def padRows (x : FVec Ideal S32x256x56x56 .f32) : FVec Ideal S8192x3200 .f32 :=
  pad S8192x3200 ![0, 0] ![0, 64] ![0, 0] (shapeCast S8192x3136 x shapeCasts_S32x256x56x56_S8192x3136)
    (sitofp (F := Ideal) .f32 (constantI S_ 32 0#32)) pads_S8192x3136_S8192x3200_000_0640 h_S_

/-- The splat of the number one's binary32 word over a shape. -/
abbrev ones32x64 : FVec Ideal S32x64 .f32 := broadcastInDim S32x64 ![] bcast_S_S32x64 (constant (F := Ideal) S_ .f32 0x3F800000#32)
abbrev ones32x256 : FVec Ideal S32x256 .f32 := broadcastInDim S32x256 ![] bcast_S_S32x256 (constant (F := Ideal) S_ .f32 0x3F800000#32)

/-- The pooled sums, one per row, unflattened to batch × channel and scaled. -/
def pooledOf (sums : FVec Ideal S8192x1 .f32) : FVec Ideal S32x256 .f32 :=
  mulf (shapeCast S32x256 (shapeCast S8192 sums shapeCasts_S8192x1_S8192) shapeCasts_S8192_S32x256)
    (broadcastInDim S32x256 ![] bcast_S_S32x256 (constant (F := Ideal) S_ .f32 0x39A72F05#32))

/-- The first dense layer before its nonlinearity. -/
def dense1 (p : FVec Ideal S32x256 .f32) (w1 : FVec Ideal S64x256 .f32) (b1 : FVec Ideal S64 .f32) : FVec Ideal S32x64 .f32 :=
  addf (Host.dotGeneral (F := Ideal) dot_S32x256_S256x64_S32x64_1_0_0_1_n_n none p (transpose S256x64 [1, 0] w1 transposes_S64x256_S256x64_1_0))
    (broadcastInDim S32x64 ![0, 1] bcast_S1x64_S32x64_0_1 (broadcastInDim S1x64 ![1] bcast_S64_S1x64_1 b1))

/-- Swish, the quotient form of the logistic function spelled out. -/
def swish (a : FVec Ideal S32x64 .f32) : FVec Ideal S32x64 .f32 :=
  mulf a (Host.divf (F := Ideal) ones32x64 (addf ones32x64 (Host.exp (F := Ideal) (Host.negf (F := Ideal) a))))

/-- The second dense layer before its nonlinearity. -/
def dense2 (h : FVec Ideal S32x64 .f32) (w2 : FVec Ideal S256x64 .f32) (b2 : FVec Ideal S256 .f32) : FVec Ideal S32x256 .f32 :=
  addf (Host.dotGeneral (F := Ideal) dot_S32x64_S64x256_S32x256_1_0_0_1_n_n none h (transpose S64x256 [1, 0] w2 transposes_S256x64_S64x256_1_0))
    (broadcastInDim S32x256 ![0, 1] bcast_S1x256_S32x256_0_1 (broadcastInDim S1x256 ![1] bcast_S256_S1x256_1 b2))

/-- The logistic function in its quotient form. -/
def sigmoidQ (a : FVec Ideal S32x256 .f32) : FVec Ideal S32x256 .f32 :=
  Host.divf (F := Ideal) ones32x256 (addf ones32x256 (Host.exp (F := Ideal) (Host.negf (F := Ideal) a)))

/-- From the pooled sums to the gates, flattened to one column. -/
def gateCol (sums : FVec Ideal S8192x1 .f32) (w1 : FVec Ideal S64x256 .f32) (b1 : FVec Ideal S64 .f32)
    (w2 : FVec Ideal S256x64 .f32) (b2 : FVec Ideal S256 .f32) : FVec Ideal S8192x1 .f32 :=
  shapeCast S8192x1 (sigmoidQ (dense2 (swish (dense1 (pooledOf sums) w1 b1)) w2 b2)) shapeCasts_S32x256_S8192x1

/-- The padding columns cut away and the rows unflattened. -/
def unflatten (y : FVec Ideal S8192x3200 .f32) : FVec Ideal S32x256x56x56 .f32 :=
  shapeCast S32x256x56x56 (extractStridedSlice S8192x3136 ![0, 0] y slices_S8192x3200_S8192x3136_0_0) shapeCasts_S8192x3136_S32x256x56x56

/-- The pooling region's input array: the first activation, flattened and padded. -/
theorem entry0_v1 (c : Dev nD) : V2 m ρ c main_v1 = padRows (m ((c : Thread nD τ).loc main_arg0)) := by
  show StableHlo.after hostOps0_1 (StableHlo.after hostOps0 (W0 m ρ c)) (Proc.devRef .tc main_v1) = _
  dsimp only [hostOps0, hostOps0_1]
  after_results
  rfl

/-! ## The arguments, read at the pooling region's exit -/

theorem exit0_arg1 (c : Dev nD) : W3 m ρ c (Proc.devRef .tc main_arg1) = m ((c : Thread nD τ).loc main_arg1) :=
  (W3_of_ne m ρ c main_arg1 (by decide)).trans (by
    show StableHlo.after hostOps0_1 (StableHlo.after hostOps0 (W0 m ρ c)) (Proc.devRef .tc main_arg1) = _
    dsimp only [hostOps0, hostOps0_1]
    after_results)
theorem exit0_arg2 (c : Dev nD) : W3 m ρ c (Proc.devRef .tc main_arg2) = m ((c : Thread nD τ).loc main_arg2) :=
  (W3_of_ne m ρ c main_arg2 (by decide)).trans (by
    show StableHlo.after hostOps0_1 (StableHlo.after hostOps0 (W0 m ρ c)) (Proc.devRef .tc main_arg2) = _
    dsimp only [hostOps0, hostOps0_1]
    after_results)
theorem exit0_arg3 (c : Dev nD) : W3 m ρ c (Proc.devRef .tc main_arg3) = m ((c : Thread nD τ).loc main_arg3) :=
  (W3_of_ne m ρ c main_arg3 (by decide)).trans (by
    show StableHlo.after hostOps0_1 (StableHlo.after hostOps0 (W0 m ρ c)) (Proc.devRef .tc main_arg3) = _
    dsimp only [hostOps0, hostOps0_1]
    after_results)
theorem exit0_arg4 (c : Dev nD) : W3 m ρ c (Proc.devRef .tc main_arg4) = m ((c : Thread nD τ).loc main_arg4) :=
  (W3_of_ne m ρ c main_arg4 (by decide)).trans (by
    show StableHlo.after hostOps0_1 (StableHlo.after hostOps0 (W0 m ρ c)) (Proc.devRef .tc main_arg4) = _
    dsimp only [hostOps0, hostOps0_1]
    after_results)
theorem exit0_arg5 (c : Dev nD) : W3 m ρ c (Proc.devRef .tc main_arg5) = m ((c : Thread nD τ).loc main_arg5) :=
  (W3_of_ne m ρ c main_arg5 (by decide)).trans (by
    show StableHlo.after hostOps0_1 (StableHlo.after hostOps0 (W0 m ρ c)) (Proc.devRef .tc main_arg5) = _
    dsimp only [hostOps0, hostOps0_1]
    after_results)

/-- The pooling region's output array, at its exit, is what its write-backs leave. -/
theorem exit0_v2 (c : Dev nD) : W3 m ρ c (Proc.devRef .tc main_v2) = (dat0 (V2 m ρ) c).arrAt 1 cfg0.N :=
  W3_arr m ρ c 1

/-! ## The gating region's two input arrays -/

/-- The per-row scale: the gates, computed from the pooling region's output and the four parameter arrays. -/
theorem entry1_v32 (c : Dev nD) : V6 m ρ c main_v32
    = gateCol ((dat0 (V2 m ρ) c).arrAt 1 cfg0.N) (m ((c : Thread nD τ).loc main_arg2)) (m ((c : Thread nD τ).loc main_arg3))
        (m ((c : Thread nD τ).loc main_arg4)) (m ((c : Thread nD τ).loc main_arg5)) := by
  show StableHlo.after hostOps1_2 (StableHlo.after hostOps1_1 (StableHlo.after hostOps1 (W3 m ρ c))) (Proc.devRef .tc main_v32) = _
  dsimp only [hostOps1, hostOps1_1, hostOps1_2]
  after_results_simp
  rw [exit0_v2, exit0_arg2, exit0_arg3, exit0_arg4, exit0_arg5]
  rfl

/-- The second activation, flattened and padded. -/
theorem entry1_v31 (c : Dev nD) : V6 m ρ c main_v31 = padRows (m ((c : Thread nD τ).loc main_arg1)) := by
  show StableHlo.after hostOps1_2 (StableHlo.after hostOps1_1 (StableHlo.after hostOps1 (W3 m ρ c))) (Proc.devRef .tc main_v31) = _
  dsimp only [hostOps1, hostOps1_1, hostOps1_2]
  after_results_simp
  rw [exit0_arg1]
  rfl

/-! ## The result array -/

/-- The gating region's output array, at its exit, is what its write-backs leave. -/
theorem exit1_v33 (c : Dev nD) : W7 m ρ c (Proc.devRef .tc main_v33) = (dat1 (V6 m ρ) c).arrAt 2 cfg1.N :=
  W7_arr m ρ c 2

/-- The result array: the gating region's output with the padding cut away, unflattened. -/
theorem last_v35 (c : Dev nD) : W8 m ρ c (Proc.devRef .tc main_v35) = unflatten ((dat1 (V6 m ρ) c).arrAt 2 cfg1.N) := by
  show StableHlo.after hostOps2 (W7 m ρ c) (Proc.devRef .tc main_v35) = _
  dsimp only [hostOps2]
  after_results
  rw [exit1_v33]
  rfl

end Cert.ReferenceIdeal.SEValue

end
-- ==== Proof.LibRowReduce.lean ====
/-
  A row's maximum and a row's sum, read at the row, on the extended reals.

  * A reduction of an `[a, b]` array over its second axis reads, at row `r`, the entries `(r, k)`, `k : Fin b`:
    a maximum as the fold of `max` from the starting value over them, a sum as their sum.
  * A host reduction of an `[a, b, c]` array over its last axis by `max` reads, at `(p, r)`, the fold of `max` from the
    initial value over the entries `(p, r, k)`, `k : Fin c`.

  Both folds are over `Finset.univ` of the reduced axis, so a kernel's row maximum and a reference's meet as one term.
-/
import Idealize.ShloMosaic.PureOps.Ideal
import Idealize.ShloMosaic.PureOps.Ideal.Laws
import Idealize.ShloMosaic.PureOps.Reduce
import Idealize.ShloMosaic.Lib.ValueIdx

noncomputable section

open scoped BigOperators

namespace Cert.Lib

open Idealize.ShloMosaic Idealize.ShloMosaic.ValueIdx

/-- Over result row `r`, the source index with `k` on the reduced second axis is `(r, k)`. -/
theorem lift_row {a b : ℕ} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

/-- A row maximum: the fold of `max` from the starting value over the row's entries. -/
theorem multiReduction_max_row {a b : ℕ} {φ : FTy} (X : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ X acc h hφ hacc (ix1 r)
      = (Finset.univ : Finset (Fin b)).fold max (Ideal.ofBits φ acc) (fun k => X (ix2 r k)) := by
  refine (Ideal.multiReduction_maximumf_single X acc h hφ hacc (ix1 r)).trans ?_
  have e : (X ∘ h.lift (ix1 r)) = fun k : Fin b => X (ix2 r k) := funext fun k => congrArg X (lift_row h r k)
  rw [e]
  rfl

/-- A row sum: the sum of the row's entries. -/
theorem multiReduction_add_row {a b : ℕ} {φ : FTy} (X : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ X acc h hφ hacc (ix1 r) = ∑ k : Fin b, X (ix2 r k) := by
  refine (Ideal.multiReduction_add_single X acc h hφ hacc (ix1 r)).trans ?_
  exact Finset.sum_congr rfl fun k _ => congrArg X (lift_row h r k)

/-- Over result index `(p, r)`, the source index with `k` on the reduced last axis is `(p, r, k)`. -/
theorem lift_last3 {a b c : ℕ} (h : (⟨3, ![a, b, c]⟩ : Shape).Reduces [2] ⟨2, ![a, b]⟩) (p : Fin a) (r : Fin b) (k : Fin c) :
    h.lift (ix2 p r) k = ix3 p r k := by
  funext d
  apply Fin.ext
  match d with
  | ⟨0, _⟩ => rfl
  | ⟨1, _⟩ => rfl
  | ⟨2, _⟩ => rfl

/-- A host maximum over the last axis of a rank-3 array: the fold of `max` from the initial value over that axis. -/
theorem hostReduce_max_last3 {a b c : ℕ} {φ : FTy} {u : Shape} (X : FVec Ideal ⟨3, ![a, b, c]⟩ φ) (init : FVec Ideal u φ)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (r : Fin b) :
    Host.reduce (FloatOps.maximumf (F := Ideal) (φ := φ)) X init h' hu (ix2 p r)
      = (Finset.univ : Finset (Fin c)).fold max (init (Shape.Idx.first hu)) (fun k => X (ix3 p r k)) := by
  refine (Host.reduce_eq_fold_single (FloatOps.maximumf (F := Ideal) (φ := φ)) X init h' h hu (ix2 p r)).trans ?_
  have e : (X ∘ h.lift (ix2 p r)) = fun k : Fin c => X (ix3 p r k) := funext fun k => congrArg X (lift_last3 h p r k)
  rw [e]
  rfl

end Cert.Lib

end
-- ==== Proof.LibKeepdims.lean ====
/-
  Two column ("keepdims") layout forms read at an index.

  * An `[a]` array cast to `[a, 1]` reads, at `(i, u)`, the operand at `i`, whatever the unit coordinate `u`.
  * An `[a, 1]` array broadcast to `[a, b]` reads, at `(p, c)`, the operand's one entry of row `p`.

  Together they are how a per-row quantity (a row's maximum, a row's sum) is spread back over the row.
-/
import Idealize.ShloMosaic.Lib.Pipeline.Value
import Idealize.ShloMosaic.Lib.ValueIdx

noncomputable section

namespace Cert.Lib

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.RefPoolBody.lean ====
/-
  The pooling kernel's body, read as values.

  At a grid point the body adds, to each of the 256 running sums it holds for its block of rows, the sum of that row's
  640 entries of the current column tile; at the first tile of a row block it first resets the running sums to zero.
  So what a point leaves in the output's staging buffer is `acc + rowsums(tile)`, with `acc` the zero block at a first
  tile and what the point before left elsewhere; entry by entry, `acc[p] + Σ_l tile[p, l]`.
-/
import proofs.«171288_g2000302560019453_pallasbulk_905_8_alg».proof.Defs
import proofs.«171288_g2000302560019453_pallasbulk_905_8_alg».proof.Proof.Gen.ReferenceIdeal.Frame
import proofs.«171288_g2000302560019453_pallasbulk_905_8_alg».proof.Proof.LibRowReduce
import proofs.«171288_g2000302560019453_pallasbulk_905_8_alg».proof.Proof.LibKeepdims
import Idealize.ShloMosaic.Lib.Pipeline.Value
import Idealize.ShloMosaic.Lib.ValueIdx
import Idealize.ShloMosaic.Lib.Tactic

set_option maxRecDepth 16384

noncomputable section

open scoped BigOperators

namespace Cert.ReferenceIdeal.SEValue

open Cert.ReferenceIdeal Cert.ReferenceIdeal.Gen
open Idealize.ShloMosaic Idealize.ShloMosaic.TcCoe Idealize.ShloMosaic.Tactic Idealize.ShloMosaic.ValueIdx Idealize.SL.Sem

variable {F : FTy → Type} [FloatOps F]

/-- Both of the body's buffers are read and written whole, from offset zero on both axes. -/
theorem zero_offsets2 : (![0, 0] : Fin 2 → Nat) = fun _ => 0 := funext fun a => by fin_cases a <;> rfl

/-- A LATER TILE of a row block: the body leaves, over the running sums `acc`, the payload of `acc` and the tile. -/
theorem pool_step (c : Dev nD) (i : grid0.Coords) (a2 : Memref sig .tc .vmem S256x640 .f32) (h2 : a2.IsWhole)
    (a3 : Memref sig .tc .vmem S256x1 .f32) (h3 : a3.IsWhole) (hc : ¬cond0_0 i) (x : Vec F S256x640 .f32) (acc : Vec F S256x1 .f32) :
    out0_B_1 c i a2 h2 a3 h3 hc x acc = k0_pay2 acc x := by
  unfold out0_B_1
  rw [View.read_writes_eq_canon _ _ _ (cover0_B_1 c i a2 h2 a3 h3 hc x acc)]
  unfold kernelRun0_B
  dsimp only
  rw [View.canon_unit_zero zero_offsets2]
  simp only [View.readAt_eq_ld, h2.read_unread, h3.read_unread, View.ld_unit_zero (S := S256x640) zero_offsets2,
    View.ld_unit_zero (S := S256x1) zero_offsets2]

/-- THE FIRST TILE of a row block: the body stores the zero block, reads it back, and leaves the payload of the zero
    block and the tile. -/
theorem pool_reset (c : Dev nD) (i : grid0.Coords) (a2 : Memref sig .tc .vmem S256x640 .f32) (h2 : a2.IsWhole)
    (a3 : Memref sig .tc .vmem S256x1 .f32) (h3 : a3.IsWhole) (hc : cond0_0 i) (x : Vec F S256x640 .f32) :
    out0_A_1 c i a2 h2 a3 h3 hc x = k0_pay2 (k0_pay1 (F := F)) x := by
  unfold out0_A_1
  rw [View.read_writes_eq_canon _ _ _ (cover0_A_1 c i a2 h2 a3 h3 hc x)]
  unfold kernelRun0_A
  dsimp only
  sl_unfold_words
  rw [View.canon_cons_unit_zero (S := S256x1) zero_offsets2, View.readCov_unit_zero (S := S256x1) _ zero_offsets2]
  simp only [View.readAt_eq_ld, h2.read_unread, View.ld_unit_zero (S := S256x640) zero_offsets2]

/-- The payload at an entry: the running sum there plus the sum of the tile's row. -/
theorem pool_pay_apply (acc : FVec Ideal S256x1 .f32) (x : FVec Ideal S256x640 .f32) (p : Fin 256) (u : Fin 1) :
    k0_pay2 (F := Ideal) acc x (ix2 p u) = acc (ix2 p u) + ∑ l : Fin 640, x (ix2 p l) := by
  unfold k0_pay2
  show (shapeCast S256x1 acc shapeCasts_S256x1_S256x1) (ix2 p u)
      + (shapeCast S256x1 (multiReduction (F := Ideal) .add [1] S256 (shapeCast S256x640 x shapeCasts_S256x640_S256x640) 0x00000000#32
          reduces_S256x640_S256 (.inl rfl) rfl) shapeCasts_S256_S256x1) (ix2 p u) = _
  rw [shapeCast_self, shapeCast_self]
  refine congrArg (acc (ix2 p u) + ·) ?_
  refine (Cert.Lib.shapeCast_a_a1_apply _ _ p u).trans ?_
  exact Cert.Lib.multiReduction_add_row x _ _ _ _ p

/-- The zero block at an entry is the number zero. -/
theorem pool_zero_apply (i : S256x1.Idx) : k0_pay1 (F := Ideal) i = 0 := by
  unfold k0_pay1
  show Ideal.ofBits .f32 0x00000000#32 = 0
  exact Ideal.ofBits_zero_f32

end Cert.ReferenceIdeal.SEValue

end
-- ==== Proof.RefPool.lean ====
/-
  The pooling region's output array: every row's sum over all its 3200 (padded) columns, tile by tile.

  The grid is 32 row blocks by 5 column tiles; point `t` works on row block `t / 5` and column tile `t % 5`. The 256
  running sums of a row block stay in the staging buffer over its five points — reset at the first, the tile's row sums
  added at each — and are written back after the fifth. So after the run entry `q` of the output column is
  `0 + Σ_{s<5} Σ_{l<640} X[q, 640·s + l]`, `X` the padded array the region reads.
-/
import proofs.«171288_g2000302560019453_pallasbulk_905_8_alg».proof.Defs
import proofs.«171288_g2000302560019453_pallasbulk_905_8_alg».proof.Proof.Gen.ReferenceIdeal.Frame
import proofs.«171288_g2000302560019453_pallasbulk_905_8_alg».proof.Proof.RefPoolBody
import Idealize.ShloMosaic.Lib.Pipeline.Value
import Idealize.ShloMosaic.Lib.ValueIdx

set_option maxRecDepth 16384

noncomputable section

open scoped BigOperators

namespace Cert.ReferenceIdeal.SEValue

open Cert.ReferenceIdeal Cert.ReferenceIdeal.Gen
open Idealize.ShloMosaic Idealize.ShloMosaic.TcCoe Idealize.ShloMosaic.ValueIdx Idealize.SL.Sem
open Idealize.ShloMosaic.Pipeline (Dat)

/-- A matrix read at a pair of natural numbers: its entry there, zero outside its extents. -/
def rd (a b : ℕ) (X : (⟨2, ![a, b]⟩ : Shape).Idx → EReal) (q k : ℕ) : EReal :=
  if h : q < a ∧ k < b then X (ix2 ⟨q, h.1⟩ ⟨k, h.2⟩) else 0

theorem rd_of_lt (a b : ℕ) (X : (⟨2, ![a, b]⟩ : Shape).Idx → EReal) (q k : ℕ) (hq : q < a) (hk : k < b) :
    rd a b X q k = X (ix2 ⟨q, hq⟩ ⟨k, hk⟩) := dif_pos ⟨hq, hk⟩

variable (V : (c : Dev nD) → (b : Ref sig .tc) → Buf (Elt Ideal) ((c : Thread nD τ).loc b))

/-- The index maps over the grid: the tile is row block `t / 5`, column tile `t % 5`; the output block is row block `t / 5`. -/
theorem pool_idx_facts : ∀ t : Fin cfg0.N, win0_0.index t (0 : Fin 2) = t.val / 5 ∧ win0_0.index t (1 : Fin 2) = t.val % 5
    ∧ win0_1.index t (0 : Fin 2) = t.val / 5 ∧ win0_1.index t (1 : Fin 2) = 0 :=
  (by decide +kernel : ∀ t : Fin grid0.N, _)

/-- Every row block has its last point. -/
theorem pool_idx_onto : ∀ q0 : Fin 32, ∃ t : Fin cfg0.N, t.val / 5 = q0.val ∧ t.val % 5 = 4 :=
  (by decide +kernel : ∀ q0 : Fin 32, ∃ t : Fin grid0.N, t.val / 5 = q0.val ∧ t.val % 5 = 4)

/-- A tile's entry `(p, l)` at point `t` is the padded array's entry at row `256·(t/5) + p`, column `640·(t%5) + l`. -/
theorem tile_apply (c : Dev nD) (t : Fin cfg0.N) (p : Fin 256) (l : Fin 640) :
    (iblk0 V c 0 t : Vec Ideal S256x640 .f32) (ix2 p l)
      = rd 8192 3200 (V c main_v1) (256 * (t.val / 5) + p.val) (640 * (t.val % 5) + l.val) := by
  obtain ⟨e0, e1, -, -⟩ := pool_idx_facts t
  have hN : t.val < 160 := lt_of_lt_of_eq t.isLt (show cfg0.N = 160 from N_0)
  rw [rd_of_lt 8192 3200 _ _ _ (by omega) (by omega)]
  show V c main_v1 (((cfg0.win 0).blk t).view.emb (ix2 p l)) = _
  refine congrArg (V c main_v1) (funext fun a => Fin.ext ?_)
  match a with
  | ⟨0, _⟩ => show win0_0.index t (0 : Fin 2) * 256 + 1 * p.val = 256 * (t.val / 5) + p.val; omega
  | ⟨1, _⟩ => show win0_0.index t (1 : Fin 2) * 640 + 1 * l.val = 640 * (t.val % 5) + l.val; omega

/-- The addend of point `n` at an entry of the running sums: the sum of that row of the point's tile. -/
def tileSum (c : Dev nD) (n : ℕ) (i : S256x1.Idx) : EReal :=
  if h : n < cfg0.N then ∑ l : Fin 640, (iblk0 V c 0 ⟨n, h⟩ : Vec Ideal S256x640 .f32) (ix2 (show Fin 256 from i 0) l) else 0

/-- WHAT THE STAGING BUFFER HOLDS after point `t`: zero plus the tile sums of its row block's points up to `t`. -/
theorem pool_outsAt_apply (c : Dev nD) (t : ℕ) (ht : t < cfg0.N) (i : S256x1.Idx) :
    outsAt0 V c t ht i = 0 + ∑ s ∈ Finset.range (t % 5 + 1), tileSum V c (5 * (t / 5) + s) i := by
  have h' : 5 * (t / 5) + t % 5 < cfg0.N := by rw [Nat.div_add_mod]; exact ht
  have h0 : ∀ (n : ℕ) (h : n < cfg0.N), n % 5 = 0 →
      outsAt0 V c n h = k0_pay2 (k0_pay1 (F := Ideal)) (iblk0 V c 0 ⟨n, h⟩) := fun n h hm =>
    (outsAt0_A V c ⟨n, h⟩ hm).trans
      (pool_reset (F := Ideal) c (grid0.coords ⟨n, h⟩) (ms0_0 ⟨n, h⟩) (hs0_0 ⟨n, h⟩) (ms0_1 ⟨n, h⟩) (hs0_1 ⟨n, h⟩)
        ((hcond0_0 ⟨n, h⟩).mpr hm) (iblk0 V c 0 ⟨n, h⟩))
  have hs : ∀ (n : ℕ) (h : n + 1 < cfg0.N), ¬(n + 1) % 5 = 0 →
      outsAt0 V c (n + 1) h = k0_pay2 (outsAt0 V c n (Nat.lt_of_succ_lt h)) (iblk0 V c 0 ⟨n + 1, h⟩) := fun n h hm =>
    (outsAt0_B V c ⟨n + 1, h⟩ hm).trans
      (pool_step (F := Ideal) c (grid0.coords ⟨n + 1, h⟩) (ms0_0 ⟨n + 1, h⟩) (hs0_0 ⟨n + 1, h⟩) (ms0_1 ⟨n + 1, h⟩) (hs0_1 ⟨n + 1, h⟩)
        (fun hh => hm ((hcond0_0 ⟨n + 1, h⟩).mp hh)) (iblk0 V c 0 ⟨n + 1, h⟩) (outsAt0 V c n (Nat.lt_of_succ_lt h)))
  rw [Pipeline.eq_accAt_of_mod (outsAt0 V c) 5 (fun n h => k0_pay2 (k0_pay1 (F := Ideal)) (iblk0 V c 0 ⟨n, h⟩))
    (fun n h acc => k0_pay2 acc (iblk0 V c 0 ⟨n, h⟩)) h0 hs (by decide) t ht h']
  refine Pipeline.accAt_add_apply (β := EReal) _ _ (fun _ => 0) (tileSum V c) (5 * (t / 5)) 4 ?_ ?_ (t % 5) (by omega) h' i
  · intro h j
    obtain ⟨p, u, rfl⟩ : ∃ (p : Fin 256) (u : Fin 1), j = ix2 p u := ⟨j 0, j 1, eq_ix2 j⟩
    refine (pool_pay_apply _ _ p u).trans ?_
    rw [pool_zero_apply]
    unfold tileSum
    rw [dif_pos h]
  · intro n h acc j _ _
    obtain ⟨p, u, rfl⟩ : ∃ (p : Fin 256) (u : Fin 1), j = ix2 p u := ⟨j 0, j 1, eq_ix2 j⟩
    refine (pool_pay_apply _ _ p u).trans ?_
    unfold tileSum
    rw [dif_pos h]

/-- The sums of the rows of a matrix of 3200 columns, five tiles of 640 at a time, from zero. -/
def rowSums (X : S8192x3200.Idx → EReal) : S8192x1.Idx → EReal :=
  fun q => 0 + ∑ s ∈ Finset.range 5, ∑ l : Fin 640, rd 8192 3200 X (q 0).val (640 * s + l.val)

/-- WHAT A WRITING POINT WRITES BACK — the last point of a row block — is that block of the row sums. -/
theorem pool_flushed_eq (c : Dev nD) (t : Fin cfg0.N) (hf : (cfg0.win 1).flush t = true) :
    (dat0 V c).flushed 1 t = ((cfg0.win 1).blk t).view.read (Elt Ideal) (rowSums (V c main_v1)) := by
  have hm : t.val % 5 = 4 := (flush0_1 t).mp hf
  have hN : t.val < 160 := lt_of_lt_of_eq t.isLt (show cfg0.N = 160 from N_0)
  obtain ⟨-, -, e2, e3⟩ := pool_idx_facts t
  show (cfg0.win 1).cut (grid0.coords t) ((dat0 V c).after 1 t) = _
  rw [after0_1]
  funext j
  obtain ⟨p, u, rfl⟩ : ∃ (p : Fin 256) (u : Fin 1), j = ix2 p u := ⟨j 0, j 1, eq_ix2 j⟩
  refine (pool_outsAt_apply V c t.val t.isLt (ix2 p u)).trans ?_
  show _ = rowSums (V c main_v1) (((cfg0.win 1).blk t).view.emb (ix2 p u))
  unfold rowSums
  rw [hm]
  refine congrArg (0 + ·) (Finset.sum_congr rfl fun s hs => ?_)
  have hs5 : s < 5 := Finset.mem_range.mp hs
  have hlt : 5 * (t.val / 5) + s < cfg0.N :=
    lt_of_lt_of_eq (by omega : 5 * (t.val / 5) + s < 160) (show cfg0.N = 160 from N_0).symm
  unfold tileSum
  rw [dif_pos hlt]
  refine Finset.sum_congr rfl fun l _ => ?_
  refine (tile_apply V c ⟨5 * (t.val / 5) + s, hlt⟩ p l).trans ?_
  have hrow : ((((cfg0.win 1).blk t).view.emb (ix2 p u)) 0).val = win0_1.index t (0 : Fin 2) * 256 + 1 * p.val := rfl
  rw [hrow]
  show rd 8192 3200 (V c main_v1) (256 * ((5 * (t.val / 5) + s) / 5) + p.val) (640 * ((5 * (t.val / 5) + s) % 5) + l.val) = _
  have d1 : (5 * (t.val / 5) + s) / 5 = t.val / 5 := by omega
  have d2 : (5 * (t.val / 5) + s) % 5 = s := by omega
  rw [d1, d2, e2]
  congr 1
  omega

/-- An index of the output column is in point `t`'s block iff its row is in the block's range. -/
theorem pool_mem_blk (t : Fin cfg0.N) (i : S8192x1.Idx) :
    i ∈ ((cfg0.win 1).blk t).view.set ↔ ∀ a : Fin 2, win0_1.index t a * S256x1.size a ≤ (i a).val ∧ (i a).val < win0_1.index t a * S256x1.size a + S256x1.size a := by
  show i ∈ ((View.whole main_v2).slice (win0_1.rect t)).set ↔ _
  rw [View.set_slice_whole, Rect.mem_set_unit]
  exact Iff.rfl

/-- The writing points' blocks cover the output column: row `q` is in the block of row block `q / 256`. -/
theorem pool_cover (i : S8192x1.Idx) :
    ∃ t : Fin cfg0.N, (cfg0.win 1).flush t = true ∧ i ∈ ((cfg0.win 1).blk t).view.set := by
  have hi0 : (i 0).val < 8192 := (i 0).isLt
  have hi1 : (i 1).val < 1 := (i 1).isLt
  obtain ⟨t, ht0, ht1⟩ := pool_idx_onto ⟨(i 0).val / 256, by omega⟩
  obtain ⟨-, -, e2, e3⟩ := pool_idx_facts t
  refine ⟨t, (flush0_1 t).mpr ht1, ?_⟩
  rw [pool_mem_blk]
  intro a
  match a with
  | ⟨0, _⟩ => show win0_1.index t (0 : Fin 2) * 256 ≤ (i 0).val ∧ (i 0).val < win0_1.index t (0 : Fin 2) * 256 + 256
              dsimp only at ht0; omega
  | ⟨1, _⟩ => show win0_1.index t (1 : Fin 2) * 1 ≤ (i 1).val ∧ (i 1).val < win0_1.index t (1 : Fin 2) * 1 + 1
              omega

/-- THE ARRAY after the run: the row sums of the input array as the region finds it. -/
theorem pool_final (c : Dev nD) : (dat0 V c).arrAt 1 cfg0.N = rowSums (V c main_v1) :=
  (dat0 V c).arrAt_eq_of_cover 1 (rowSums (V c main_v1)) (fun t hf => pool_flushed_eq V c t hf) pool_cover

end Cert.ReferenceIdeal.SEValue

end
-- ==== Proof.RefGate.lean ====
/-
  The gating region's output array: every entry of the padded, flattened activation times its row's scale.

  The grid is 32 row blocks by 5 column tiles; point `t` works on row block `t / 5` and column tile `t % 5`, reads the
  256 scales of its row block and the 256 × 640 tile, stores their product row by row, and writes the tile back. The
  tiles cover the 8192 × 3200 array, so after the run entry `(q, k)` is `scale[q] · z[q, k]`.
-/
import proofs.«171288_g2000302560019453_pallasbulk_905_8_alg».proof.Defs
import proofs.«171288_g2000302560019453_pallasbulk_905_8_alg».proof.Proof.Gen.ReferenceIdeal.Frame
import proofs.«171288_g2000302560019453_pallasbulk_905_8_alg».proof.Proof.RefPoolBody
import proofs.«171288_g2000302560019453_pallasbulk_905_8_alg».proof.Proof.LibKeepdims
import Idealize.ShloMosaic.Lib.Pipeline.Value
import Idealize.ShloMosaic.Lib.ValueIdx

set_option maxRecDepth 16384

noncomputable section

namespace Cert.ReferenceIdeal.SEValue

open Cert.ReferenceIdeal Cert.ReferenceIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The body's payload at an entry: the row's scale times the tile's entry. -/
theorem gate_pay_apply (s : FVec Ideal S256x1 .f32) (z : FVec Ideal S256x640 .f32) (p : Fin 256) (l : Fin 640) :
    k1_pay1 (F := Ideal) s z (ix2 p l) = s (ix2 p (0 : Fin 1)) * z (ix2 p l) := by
  unfold k1_pay1
  show (broadcastTo S256x640 (shapeCast S256x1 s shapeCasts_S256x1_S256x1) broadcasts_S256x1_S256x640) (ix2 p l)
      * (shapeCast S256x640 z shapeCasts_S256x640_S256x640) (ix2 p l) = _
  rw [shapeCast_self, shapeCast_self]
  exact congrArg (· * z (ix2 p l)) (Cert.Lib.broadcastTo_a1_ab_apply s _ p l)

/-- The gated array: each entry of `Z` times the scale of its row. -/
def gated (S : S8192x1.Idx → EReal) (Z : S8192x3200.Idx → EReal) : S8192x3200.Idx → EReal :=
  fun i => S (ix2 (i 0) (0 : Fin 1)) * Z i

/-- The index maps over the grid: the scales' block follows the row block, the tile's and the output's blocks are
    row block `t / 5`, column tile `t % 5`. -/
theorem gate_idx_facts : ∀ t : Fin cfg1.N, win1_0.index t (0 : Fin 2) = t.val / 5 ∧ win1_0.index t (1 : Fin 2) = 0
    ∧ win1_1.index t (0 : Fin 2) = t.val / 5 ∧ win1_1.index t (1 : Fin 2) = t.val % 5
    ∧ win1_2.index t (0 : Fin 2) = t.val / 5 ∧ win1_2.index t (1 : Fin 2) = t.val % 5 :=
  (by decide +kernel : ∀ t : Fin grid1.N, _)

/-- Every (row block, column tile) pair is some point's. -/
theorem gate_idx_onto : ∀ (q0 : Fin 32) (q1 : Fin 5), ∃ t : Fin cfg1.N, t.val / 5 = q0.val ∧ t.val % 5 = q1.val :=
  (by decide +kernel : ∀ (q0 : Fin 32) (q1 : Fin 5), ∃ t : Fin grid1.N, t.val / 5 = q0.val ∧ t.val % 5 = q1.val)

/-- WHAT POINT `t` WRITES BACK is block `t` of the gated array of the two input arrays as the region finds them. -/
theorem gate_flushed_eq (c : Dev nD) (t : Fin cfg1.N) :
    (dat1 V c).flushed 2 t = ((cfg1.win 2).blk t).view.read (Elt Ideal) (gated (V c main_v32) (V c main_v31)) := by
  show (cfg1.win 2).cut (grid1.coords t) ((dat1 V c).after 2 t) = _
  rw [after1_2]
  unfold out1_2
  rw [View.canon_unit_zero zero_offsets2]
  simp only [View.ld_unit_zero (S := S256x1) zero_offsets2, View.ld_unit_zero (S := S256x640) zero_offsets2]
  obtain ⟨e0, e1, e2, e3, e4, e5⟩ := gate_idx_facts t
  funext j
  obtain ⟨p, l, rfl⟩ : ∃ (p : Fin 256) (l : Fin 640), j = ix2 p l := ⟨j 0, j 1, eq_ix2 j⟩
  refine (gate_pay_apply (iblk1 V c 0 t) (iblk1 V c 1 t) p l).trans ?_
  have h0 : ((cfg1.win 0).blk t).view.emb (ix2 p (0 : Fin 1)) = ix2 ((((cfg1.win 2).blk t).view.emb (ix2 p l)) 0) (0 : Fin 1) := by
    funext a; apply Fin.ext
    match a with
    | ⟨0, _⟩ => show win1_0.index t (0 : Fin 2) * 256 + 1 * p.val = win1_2.index t (0 : Fin 2) * 256 + 1 * p.val; omega
    | ⟨1, _⟩ => show win1_0.index t (1 : Fin 2) * 1 + 1 * 0 = 0; omega
  have h1 : ((cfg1.win 1).blk t).view.emb (ix2 p l) = ((cfg1.win 2).blk t).view.emb (ix2 p l) := by
    funext a; apply Fin.ext
    match a with
    | ⟨0, _⟩ => show win1_1.index t (0 : Fin 2) * 256 + 1 * p.val = win1_2.index t (0 : Fin 2) * 256 + 1 * p.val; omega
    | ⟨1, _⟩ => show win1_1.index t (1 : Fin 2) * 640 + 1 * l.val = win1_2.index t (1 : Fin 2) * 640 + 1 * l.val; omega
  have key : ∀ (S : S8192x1.Idx → EReal) (Z : S8192x3200.Idx → EReal) (i0 i0' : S8192x1.Idx) (i1 i1' : S8192x3200.Idx),
      i0 = i0' → i1 = i1' → S i0 * Z i1 = S i0' * Z i1' := fun S Z _ _ _ _ e0' e1' => by rw [e0', e1']
  exact key (V c main_v32) (V c main_v31) _ _ _ _ h0 h1

/-- An index of the array is in point `t`'s block iff each coordinate is in the block's range on its axis. -/
theorem gate_mem_blk (t : Fin cfg1.N) (i : S8192x3200.Idx) :
    i ∈ ((cfg1.win 2).blk t).view.set ↔ ∀ a : Fin 2, win1_2.index t a * S256x640.size a ≤ (i a).val ∧ (i a).val < win1_2.index t a * S256x640.size a + S256x640.size a := by
  show i ∈ ((View.whole main_v33).slice (win1_2.rect t)).set ↔ _
  rw [View.set_slice_whole, Rect.mem_set_unit]
  exact Iff.rfl

/-- The tiles cover the array: entry `(q, k)` is in the block of row block `q / 256`, column tile `k / 640`. -/
theorem gate_cover (i : S8192x3200.Idx) :
    ∃ t : Fin cfg1.N, (cfg1.win 2).flush t = true ∧ i ∈ ((cfg1.win 2).blk t).view.set := by
  have hi0 : (i 0).val < 8192 := (i 0).isLt
  have hi1 : (i 1).val < 3200 := (i 1).isLt
  obtain ⟨t, ht0, ht1⟩ := gate_idx_onto ⟨(i 0).val / 256, by omega⟩ ⟨(i 1).val / 640, by omega⟩
  obtain ⟨e0, e1, e2, e3, e4, e5⟩ := gate_idx_facts t
  refine ⟨t, flush1_2 t, ?_⟩
  rw [gate_mem_blk]
  intro a
  match a with
  | ⟨0, _⟩ => show win1_2.index t (0 : Fin 2) * 256 ≤ (i 0).val ∧ (i 0).val < win1_2.index t (0 : Fin 2) * 256 + 256
              dsimp only at ht0 ht1; omega
  | ⟨1, _⟩ => show win1_2.index t (1 : Fin 2) * 640 ≤ (i 1).val ∧ (i 1).val < win1_2.index t (1 : Fin 2) * 640 + 640
              dsimp only at ht0 ht1; omega

/-- THE ARRAY after the run: the gated array of the two input arrays as the region finds them. -/
theorem gate_final (c : Dev nD) : (dat1 V c).arrAt 2 cfg1.N = gated (V c main_v32) (V c main_v31) :=
  (dat1 V c).arrAt_eq_of_cover 2 (gated (V c main_v32) (V c main_v31)) (fun t _ => gate_flushed_eq V c t) gate_cover

end Cert.ReferenceIdeal.SEValue

end
-- ==== Proof.RefLayout.lean ====
/-
  The flattening, the padding and their undoing, read at an index.

  An activation `[32, 256, 56, 56]` flattened to `[8192, 3136]` puts entry `(b, c, h, w)` at row `256·b + c`, column
  `56·h + w`; padding to 3200 columns adds 64 columns of zero on the right; cutting the padding away and unflattening
  reads row `256·b + c`, column `56·h + w` back at `(b, c, h, w)`.
-/
import proofs.«171288_g2000302560019453_pallasbulk_905_8_alg».proof.Proof.RefHost
import Idealize.ShloMosaic.Lib.Pipeline.Value
import Idealize.ShloMosaic.Lib.KernelVsHost
import Idealize.ShloMosaic.Lib.ValueIdx

set_option maxRecDepth 16384

noncomputable section

namespace Cert.ReferenceIdeal.SEValue

open Cert.ReferenceIdeal Cert.ReferenceIdeal.Gen
open Idealize.ShloMosaic Idealize.ShloMosaic.ValueIdx

/-- The row of window `(b, c)` and the column of its entry `(h, w)`. -/
abbrev rowOf (b : Fin 32) (c : Fin 256) : Fin 8192 := ⟨256 * b.val + c.val, by omega⟩
abbrev colOf (h w : Fin 56) : Fin 3136 := ⟨56 * h.val + w.val, by omega⟩

/-- The flattened activation at `(row, column)` is the activation at `(b, c, h, w)`. -/
theorem flat_apply (x : FVec Ideal S32x256x56x56 .f32) (b : Fin 32) (c : Fin 256) (h w : Fin 56) :
    shapeCast S8192x3136 x shapeCasts_S32x256x56x56_S8192x3136 (ix2 (rowOf b c) (colOf h w)) = x (ix4 b c h w) :=
  shapeCast_apply x _ _ _ (by
    rw [Shape.rowMajor_val_four, Shape.rowMajor_val_two]
    show ((b.val * 256 + c.val) * 56 + h.val) * 56 + w.val = (256 * b.val + c.val) * 3136 + (56 * h.val + w.val)
    omega)

/-- Inside the first 3136 columns the padded array is the flattened activation. -/
theorem padRows_inside (x : FVec Ideal S32x256x56x56 .f32) (b : Fin 32) (c : Fin 256) (h w : Fin 56) :
    padRows x (ix2 (rowOf b c) (⟨56 * h.val + w.val, by omega⟩ : Fin 3200)) = x (ix4 b c h w) := by
  unfold padRows
  refine (pad_apply_of_inside _ _ _ _ _ _ _ _ (ix2 (rowOf b c) (colOf h w)) fun a => ?_).trans (flat_apply x b c h w)
  match a with
  | ⟨0, _⟩ => show 256 * b.val + c.val = 0 + (256 * b.val + c.val) * (0 + 1); omega
  | ⟨1, _⟩ => show 56 * h.val + w.val = 0 + (56 * h.val + w.val) * (0 + 1); omega

/-- Past column 3136 the padded array is zero. -/
theorem padRows_outside (x : FVec Ideal S32x256x56x56 .f32) (q : Fin 8192) (k : Fin 3200) (hk : 3136 ≤ k.val) :
    padRows x (ix2 q k) = 0 := by
  unfold padRows
  refine (pad_apply_of_not_inside _ _ _ _ _ _ _ (ix2 q k) (1 : Fin 2) fun hin => ?_).trans ?_
  · have h3 : (k.val - 0) / (0 + 1) < 3136 := hin.2.2
    omega
  · show ((((0#32 : BitVec 32).toInt : ℝ)) : EReal) = 0
    simp

/-- The padding cut away and the rows unflattened, at `(b, c, h, w)`: the array at that window's row and column. -/
theorem unflatten_apply (y : FVec Ideal S8192x3200 .f32) (b : Fin 32) (c : Fin 256) (h w : Fin 56) :
    unflatten y (ix4 b c h w) = y (ix2 (rowOf b c) (⟨56 * h.val + w.val, by omega⟩ : Fin 3200)) := by
  unfold unflatten
  refine (shapeCast_apply _ _ (ix4 b c h w) (ix2 (rowOf b c) (colOf h w)) (by
    rw [Shape.rowMajor_val_four, Shape.rowMajor_val_two]
    show (256 * b.val + c.val) * 3136 + (56 * h.val + w.val) = ((b.val * 256 + c.val) * 56 + h.val) * 56 + w.val
    omega)).trans ?_
  refine extractStridedSlice_apply _ y _ _ _ fun a => ?_
  match a with
  | ⟨0, _⟩ => show 256 * b.val + c.val = 0 + (256 * b.val + c.val); omega
  | ⟨1, _⟩ => show 56 * h.val + w.val = 0 + (56 * h.val + w.val); omega

end Cert.ReferenceIdeal.SEValue

end
-- ==== Proof.LibLogisticQuotient.lean ====
/-
  The logistic function spelled as a quotient.

  On the extended reals the logistic function is `σ(v) = 1 / (1 + e⁻ᵛ)`, with `σ(−∞) = 0` and `σ(+∞) = 1` by the
  conventions of the quotient and of the exponential at the infinities. A program that does not have the function
  as one operation spells it out: negate, exponentiate, add the number one, divide the number one by the sum, both ones
  given by their binary32 word `0x3F800000`. That expression is the logistic function at every extended real — it is
  the function's definition once the word is read as the number one.
-/
import Idealize.ShloMosaic.PureOps.Ideal

noncomputable section

namespace Cert.Lib

open Idealize.ShloMosaic

/-- The binary32 word `0x3F800000` is the number one. -/
theorem one_f32 : Ideal.ofBits .f32 0x3F800000#32 = 1 := by
  simp [Ideal.ofBits, Ideal.ieee, -EReal.coe_mul]; norm_num

/-- THE QUOTIENT `1 / (1 + e⁻ᵛ)`, both ones given by their binary32 word, is the logistic function of `v`, at the
    infinities too. -/
theorem quotient_logistic (v : EReal) :
    Ideal.div (Ideal.ofBits .f32 0x3F800000#32) (Ideal.ofBits .f32 0x3F800000#32 + Ideal.exp (-v)) = Ideal.logistic v := by
  rw [one_f32]; rfl

/-- The same in the host's operations at the ideal values: divide, add, exponential, negate. -/
theorem host_quotient_logistic (v : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf v)))
      = FloatOps.logistic v :=
  quotient_logistic v

end Cert.Lib

end
-- ==== Proof.RefDense.lean ====
/-
  The two dense layers on the host, read at an entry: the specification's gate.

  Given that the column of pooled sums holds, at row `256·b + c`, the sum of window `(b, c)`, the host chain — unflatten,
  scale, multiply by the transposed first weight matrix and add the bias, swish with the logistic function spelled as the
  quotient `1 / (1 + e⁻ᵃ)`, multiply by the transposed second weight matrix and add the bias, the quotient again, flatten
  to a column — leaves at row `256·b + c` the gate of window `(b, c)`.
-/
import proofs.«171288_g2000302560019453_pallasbulk_905_8_alg».proof.Proof.RefLayout
import proofs.«171288_g2000302560019453_pallasbulk_905_8_alg».proof.Proof.Spec
import proofs.«171288_g2000302560019453_pallasbulk_905_8_alg».proof.Proof.LibPlainDot
import proofs.«171288_g2000302560019453_pallasbulk_905_8_alg».proof.Proof.LibLogisticQuotient
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

open scoped BigOperators

namespace Cert.ReferenceIdeal.SEValue

open Cert.ReferenceIdeal Cert.ReferenceIdeal.Gen
open Idealize.ShloMosaic Idealize.ShloMosaic.ValueIdx

/-- The pooled sums unflattened and scaled, at `(b, c)`: the sum at row `256·b + c` times the scale. -/
theorem pooledOf_apply (sums : FVec Ideal S8192x1 .f32) (b : Fin 32) (c : Fin 256) :
    pooledOf sums (ix2 b c) = sums (ix2 (rowOf b c) (0 : Fin 1)) * Cert.SE.invHW := by
  unfold pooledOf
  show (shapeCast S32x256 (shapeCast S8192 sums shapeCasts_S8192x1_S8192) shapeCasts_S8192_S32x256) (ix2 b c)
      * Ideal.ofBits .f32 0x39A72F05#32 = _
  refine congrArg (· * Ideal.ofBits .f32 0x39A72F05#32) ?_
  refine (shapeCast_apply _ _ (ix2 b c) (ix1 (rowOf b c)) (by
    rw [Shape.rowMajor_val_one, Shape.rowMajor_val_two]
    show 256 * b.val + c.val = b.val * 256 + c.val
    omega)).trans ?_
  exact shapeCast_apply sums _ (ix1 (rowOf b c)) (ix2 (rowOf b c) (0 : Fin 1)) (by
    rw [Shape.rowMajor_val_two, Shape.rowMajor_val_one]
    show (256 * b.val + c.val) * 1 + 0 = 256 * b.val + c.val
    omega)

/-- The first dense layer at `(b, k)`. -/
theorem dense1_apply (p : FVec Ideal S32x256 .f32) (w1 : FVec Ideal S64x256 .f32) (b1 : FVec Ideal S64 .f32) (b : Fin 32) (k : Fin 64) :
    dense1 p w1 b1 (ix2 b k) = (∑ c : Fin 256, p (ix2 b c) * w1 (ix2 k c)) + b1 (ix1 k) := by
  unfold dense1
  show (Host.dotGeneral (F := Ideal) dot_S32x256_S256x64_S32x64_1_0_0_1_n_n none p (transpose S256x64 [1, 0] w1 transposes_S64x256_S256x64_1_0)) (ix2 b k)
      + (broadcastInDim S32x64 ![0, 1] bcast_S1x64_S32x64_0_1 (broadcastInDim S1x64 ![1] bcast_S64_S1x64_1 b1)) (ix2 b k) = _
  have hdot : (Host.dotGeneral (F := Ideal) dot_S32x256_S256x64_S32x64_1_0_0_1_n_n none p (transpose S256x64 [1, 0] w1 transposes_S64x256_S256x64_1_0)) (ix2 b k)
      = ∑ c : Fin 256, p (ix2 b c) * w1 (ix2 k c) :=
    (Cert.Lib.plain_dotGeneral_apply 32 256 64 none p (transpose S256x64 [1, 0] w1 transposes_S64x256_S256x64_1_0) b k).trans
      (Finset.sum_congr rfl fun c _ => congrArg (p (ix2 b c) * ·) (transpose_ix2_apply w1 transposes_S64x256_S256x64_1_0 c k))
  have hbias : (broadcastInDim S32x64 ![0, 1] bcast_S1x64_S32x64_0_1 (broadcastInDim S1x64 ![1] bcast_S64_S1x64_1 b1)) (ix2 b k) = b1 (ix1 k) :=
    (broadcastInDim_apply ![0, 1] bcast_S1x64_S32x64_0_1 _ (ix2 b k) (ix2 (0 : Fin 1) k)
      fun a => match a with | ⟨0, _⟩ => rfl | ⟨1, _⟩ => rfl).trans
      (broadcastInDim_apply ![1] bcast_S64_S1x64_1 b1 (ix2 (0 : Fin 1) k) (ix1 k) fun a => match a with | ⟨0, _⟩ => rfl)
  rw [hdot, hbias]

/-- Swish at an entry: the entry times its logistic function — the host's quotient is that function. -/
theorem swish_apply (a : FVec Ideal S32x64 .f32) (i : S32x64.Idx) : swish a i = a i * Ideal.logistic (a i) := by
  unfold swish
  exact congrArg (a i * ·) (Cert.Lib.host_quotient_logistic (a i))

/-- The second dense layer at `(b, c)`. -/
theorem dense2_apply (h : FVec Ideal S32x64 .f32) (w2 : FVec Ideal S256x64 .f32) (b2 : FVec Ideal S256 .f32) (b : Fin 32) (c : Fin 256) :
    dense2 h w2 b2 (ix2 b c) = (∑ k : Fin 64, h (ix2 b k) * w2 (ix2 c k)) + b2 (ix1 c) := by
  unfold dense2
  show (Host.dotGeneral (F := Ideal) dot_S32x64_S64x256_S32x256_1_0_0_1_n_n none h (transpose S64x256 [1, 0] w2 transposes_S256x64_S64x256_1_0)) (ix2 b c)
      + (broadcastInDim S32x256 ![0, 1] bcast_S1x256_S32x256_0_1 (broadcastInDim S1x256 ![1] bcast_S256_S1x256_1 b2)) (ix2 b c) = _
  have hdot : (Host.dotGeneral (F := Ideal) dot_S32x64_S64x256_S32x256_1_0_0_1_n_n none h (transpose S64x256 [1, 0] w2 transposes_S256x64_S64x256_1_0)) (ix2 b c)
      = ∑ k : Fin 64, h (ix2 b k) * w2 (ix2 c k) :=
    (Cert.Lib.plain_dotGeneral_apply 32 64 256 none h (transpose S64x256 [1, 0] w2 transposes_S256x64_S64x256_1_0) b c).trans
      (Finset.sum_congr rfl fun k _ => congrArg (h (ix2 b k) * ·) (transpose_ix2_apply w2 transposes_S256x64_S64x256_1_0 k c))
  have hbias : (broadcastInDim S32x256 ![0, 1] bcast_S1x256_S32x256_0_1 (broadcastInDim S1x256 ![1] bcast_S256_S1x256_1 b2)) (ix2 b c) = b2 (ix1 c) :=
    (broadcastInDim_apply ![0, 1] bcast_S1x256_S32x256_0_1 _ (ix2 b c) (ix2 (0 : Fin 1) c)
      fun a => match a with | ⟨0, _⟩ => rfl | ⟨1, _⟩ => rfl).trans
      (broadcastInDim_apply ![1] bcast_S256_S1x256_1 b2 (ix2 (0 : Fin 1) c) (ix1 c) fun a => match a with | ⟨0, _⟩ => rfl)
  rw [hdot, hbias]

/-- The host's quotient at an entry is the logistic function of the entry. -/
theorem sigmoidQ_apply (a : FVec Ideal S32x256 .f32) (i : S32x256.Idx) : sigmoidQ a i = Ideal.logistic (a i) := by
  unfold sigmoidQ
  exact Cert.Lib.host_quotient_logistic (a i)

/-- THE HOST CHAIN IS THE GATE: from a column holding each window's sum at its row, the chain leaves at row `256·b + c`
    the gate of window `(b, c)`. -/
theorem gateCol_eq_gate (x : FVec Ideal S32x256x56x56 .f32) (sums : FVec Ideal S8192x1 .f32)
    (w1 : FVec Ideal S64x256 .f32) (b1 : FVec Ideal S64 .f32) (w2 : FVec Ideal S256x64 .f32) (b2 : FVec Ideal S256 .f32)
    (hs : ∀ (b : Fin 32) (c : Fin 256), sums (ix2 (rowOf b c) (0 : Fin 1)) = Cert.SE.windowSum x b c)
    (b : Fin 32) (c : Fin 256) :
    gateCol sums w1 b1 w2 b2 (ix2 (rowOf b c) (0 : Fin 1)) = Cert.SE.gate x w1 b1 w2 b2 b c := by
  have hp : ∀ c' : Fin 256, pooledOf sums (ix2 b c') = Cert.SE.pooled x b c' := fun c' =>
    (pooledOf_apply sums b c').trans (by rw [hs]; rfl)
  have hh : ∀ k : Fin 64, swish (dense1 (pooledOf sums) w1 b1) (ix2 b k) = Cert.SE.hidden x w1 b1 b k := fun k => by
    rw [swish_apply, dense1_apply]
    simp only [hp]
    rfl
  unfold gateCol
  refine (shapeCast_apply _ _ (ix2 (rowOf b c) (0 : Fin 1)) (ix2 b c) (by
    rw [Shape.rowMajor_val_two, Shape.rowMajor_val_two]
    show b.val * 256 + c.val = (256 * b.val + c.val) * 1 + 0
    omega)).trans ?_
  rw [sigmoidQ_apply, dense2_apply]
  simp only [hh]
  rfl

end Cert.ReferenceIdeal.SEValue

end
-- ==== Proof.LibFlattenSum.lean ====
/-
  Sums over a flattened pair of feature blocks, regrouped.

  A row of 2·D·P features is laid out as two blocks of D·P features, each block indexed by (d, p) with
  p fastest: feature n = P·d + p in the first block, D·P + P·d + p in the second. Summing a function of the
  feature over the whole row is the same as summing, for each p, the two blocks' columns d — in any
  commutative monoid, so in particular on the extended reals with no finiteness assumed. Also: a sum over
  p < 2·Q split into its two halves, and a left-nested running sum from zero read as a finite sum.
-/
import Mathlib

namespace Cert.LibFlattenSum

open Finset

variable {M : Type*} [AddCommMonoid M]

/-- A sum over `Fin (D * P)` read as a double sum: `n = P * d + p`, the column `p` outermost. -/
theorem sum_block (D P : ℕ) (f : ℕ → M) :
    ∑ n : Fin (D * P), f n.val = ∑ p : Fin P, ∑ d : Fin D, f (P * d.val + p.val) := by
  rw [Finset.sum_comm]
  rw [← (finProdFinEquiv (m := D) (n := P)).sum_comp]
  rw [Fintype.sum_prod_type]
  refine Finset.sum_congr rfl fun d _ => Finset.sum_congr rfl fun p _ => ?_
  simp only [finProdFinEquiv_apply_val]
  congr 1
  ring

/-- A row of two blocks of `D * P` features each, summed column by column: for each `p` the first block's
    column and the second block's column. -/
theorem sum_two_blocks (D P : ℕ) (f : ℕ → M) :
    ∑ n : Fin (D * P + D * P), f n.val
      = ∑ p : Fin P, (∑ d : Fin D, f (P * d.val + p.val) + ∑ d : Fin D, f (D * P + (P * d.val + p.val))) := by
  rw [Fin.sum_univ_add]
  simp only [Fin.val_castAdd, Fin.val_natAdd]
  rw [sum_block D P f, sum_block D P fun n => f (D * P + n), ← Finset.sum_add_distrib]

/-- A sum over `p < Q + Q` is the sum of its two halves. -/
theorem sum_halves (Q : ℕ) (g : ℕ → M) :
    ∑ p : Fin (Q + Q), g p.val = ∑ p : Fin Q, g p.val + ∑ p : Fin Q, g (Q + p.val) := by
  rw [Fin.sum_univ_add]
  simp only [Fin.val_castAdd, Fin.val_natAdd]

end Cert.LibFlattenSum
-- ==== Proof.RefSums.lean ====
/-
  Five tiles of 640 columns, of which only the first 3136 columns are not zero, summed: the sum over a 56 × 56 window.

  A row of 3200 entries is summed tile by tile, five tiles of 640, starting from zero. The last 64 entries are zero, and
  the first 3136 are a 56 × 56 window laid out row-major, entry `56·h + w`. On the extended reals addition is a
  commutative monoid with `0 + a = a`, so the tiled sum, the flat sum and the window's double sum are one number, with no
  finiteness assumed of the entries.
-/
import proofs.«171288_g2000302560019453_pallasbulk_905_8_alg».proof.Proof.LibFlattenSum

open scoped BigOperators

namespace Cert.SE.Sums

/-- Tile by tile from zero, with the tail past column 3136 zero, is the window's double sum. -/
theorem tiles_eq_window (f : ℕ → EReal) (hz : ∀ k, 3136 ≤ k → f k = 0) :
    0 + ∑ s ∈ Finset.range 5, ∑ l : Fin 640, f (640 * s + l.val) = ∑ h : Fin 56, ∑ w : Fin 56, f (56 * h.val + w.val) := by
  rw [zero_add, Finset.sum_range (fun s => ∑ l : Fin 640, f (640 * s + l.val)), Finset.sum_comm,
    ← Cert.LibFlattenSum.sum_block 5 640 f]
  show ∑ n : Fin (3136 + 64), f n.val = _
  rw [Fin.sum_univ_add]
  simp only [Fin.val_castAdd, Fin.val_natAdd]
  rw [Finset.sum_eq_zero (fun i _ => hz _ (Nat.le_add_right _ _)), add_zero]
  show ∑ n : Fin (56 * 56), f n.val = _
  rw [Cert.LibFlattenSum.sum_block 56 56 f, Finset.sum_comm]

end Cert.SE.Sums
-- ==== Proof.RefValue.lean ====
/-
  The reference's result array is the gate function of the argument arrays.

  Reading backwards from the result: it is the gating region's output with the padding cut away, unflattened; that output
  is, entry by entry, the row's scale times the padded second activation; the scales are the host chain of the pooling
  region's output; and the pooling region's output is, row by row, the tiled sum of the padded first activation — which
  is the sum of that row's 56 × 56 window, the padding being zero. Put together, entry `(b, c, h, w)` of the result is
  `gate(b, c) · z[b, c, h, w]`.
-/
import proofs.«171288_g2000302560019453_pallasbulk_905_8_alg».proof.Proof.RefRun
import proofs.«171288_g2000302560019453_pallasbulk_905_8_alg».proof.Proof.RefHost
import proofs.«171288_g2000302560019453_pallasbulk_905_8_alg».proof.Proof.RefPool
import proofs.«171288_g2000302560019453_pallasbulk_905_8_alg».proof.Proof.RefGate
import proofs.«171288_g2000302560019453_pallasbulk_905_8_alg».proof.Proof.RefLayout
import proofs.«171288_g2000302560019453_pallasbulk_905_8_alg».proof.Proof.RefDense
import proofs.«171288_g2000302560019453_pallasbulk_905_8_alg».proof.Proof.RefSums
import proofs.«171288_g2000302560019453_pallasbulk_905_8_alg».proof.Proof.Spec

set_option maxRecDepth 16384

noncomputable section

open scoped BigOperators

namespace Cert.ReferenceIdeal.SEValue

open Cert.ReferenceIdeal Cert.ReferenceIdeal.Gen
open Idealize.ShloMosaic Idealize.ShloMosaic.TcCoe Idealize.ShloMosaic.ValueIdx Idealize.SL.Sem

/-- The tiled row sums of a padded activation, at a window's row: the window's sum. -/
theorem rowSums_padRows (x : FVec Ideal S32x256x56x56 .f32) (b : Fin 32) (ch : Fin 256) :
    rowSums (padRows x) (ix2 (rowOf b ch) (0 : Fin 1)) = Cert.SE.windowSum x b ch := by
  unfold rowSums
  show 0 + ∑ s ∈ Finset.range 5, ∑ l : Fin 640, rd 8192 3200 (padRows x) (256 * b.val + ch.val) (640 * s + l.val) = _
  refine (Cert.SE.Sums.tiles_eq_window (fun k => rd 8192 3200 (padRows x) (256 * b.val + ch.val) k) fun k hk => ?_).trans ?_
  · show rd 8192 3200 (padRows x) (256 * b.val + ch.val) k = 0
    unfold rd
    split
    · next hlt => exact padRows_outside x ⟨_, hlt.1⟩ ⟨k, hlt.2⟩ hk
    · rfl
  · unfold Cert.SE.windowSum
    refine Finset.sum_congr rfl fun h _ => Finset.sum_congr rfl fun w _ => ?_
    show rd 8192 3200 (padRows x) (256 * b.val + ch.val) (56 * h.val + w.val) = _
    rw [rd_of_lt 8192 3200 _ _ _ (by omega) (by omega)]
    exact padRows_inside x b ch h w

variable (m : (ℓ : Loc nD τ sig) → Buf (Elt Ideal) ℓ) (ρ : Dev nD → PrngReg)

/-- The pooling region's output array: the tiled row sums of the padded first activation. -/
theorem pool_output (c : Dev nD) :
    (dat0 (V2 m ρ) c).arrAt 1 cfg0.N = rowSums (padRows (m ((c : Thread nD τ).loc main_arg0))) :=
  (pool_final (V2 m ρ) c).trans (congrArg rowSums (entry0_v1 m ρ c))

/-- THE RESULT ARRAY at the last boundary is the gate function of the argument arrays. -/
theorem result_eq (c : Dev nD) : W8 m ρ c (Proc.devRef .tc main_v35)
    = Cert.SE.G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [last_v35, gate_final, entry1_v32, entry1_v31, pool_output]
  funext i
  obtain ⟨b, ch, h, w, rfl⟩ : ∃ (b : Fin 32) (ch : Fin 256) (h w : Fin 56), i = ix4 b ch h w :=
    ⟨i 0, i 1, i 2, i 3, eq_ix4 i⟩
  rw [unflatten_apply, Cert.SE.G_apply]
  show gateCol (rowSums (padRows (m ((c : Thread nD τ).loc main_arg0)))) (m ((c : Thread nD τ).loc main_arg2))
        (m ((c : Thread nD τ).loc main_arg3)) (m ((c : Thread nD τ).loc main_arg4)) (m ((c : Thread nD τ).loc main_arg5))
        (ix2 (rowOf b ch) (0 : Fin 1))
      * padRows (m ((c : Thread nD τ).loc main_arg1)) (ix2 (rowOf b ch) (⟨56 * h.val + w.val, by omega⟩ : Fin 3200)) = _
  rw [padRows_inside, gateCol_eq_gate (m ((c : Thread nD τ).loc main_arg0)) _ _ _ _ _
    (fun b' c' => rowSums_padRows (m ((c : Thread nD τ).loc main_arg0)) b' c') b ch]

/-- The reference's run, read: the result array at the gate function of the arguments, the arguments unchanged. -/
theorem run : θ_run (defs (F := Ideal)) (onTc (τ := τ) (main (F := Ideal))) ⟨m, fun _ => 0, ρ⟩ (fun r => ∀ c : Dev nD,
      r.2.mem ((c.tc : Thread nD τ).loc main_v35)
        = Cert.SE.G (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (run_last m ρ)

end Cert.ReferenceIdeal.SEValue

end
-- ==== Proof.lean ====
/-
  A fused squeeze-and-excite kernel against a three-stage reference, equal on the extended reals.

  Both programs compute, for activations `x` and `z` of shape `[32, 256, 56, 56]`,
  `out[b, c, h, w] = σ(swish(pool(x)[b, ·] · w1ᵀ + b1) · w2ᵀ + b2)[c] · z[b, c, h, w]`, with `pool` the window's sum times
  the binary32 word nearest 1/3136, swish `a · σ(a)` and `σ` the logistic function (`Spec.lean`: the function `G`).
  The kernel does it in one grid of 32 points, one batch element each, with the two small matrix products inside the
  body. The reference flattens `x` to 8192 rows, pads each row with zeros to 3200 columns and sums it five tiles of 640
  at a time in a first grid; computes the dense layers on the host, the logistic function spelled `1 / (1 + e⁻ᵃ)`; and
  scales the flattened, padded `z` row by row in a second grid, cutting the padding away afterwards.
  On the extended reals the two agree with nothing assumed of the inputs: the padding adds zeros, regrouping a sum
  needs only that addition is commutative and associative, the quotient is the logistic function by definition, and
  the scale is the same word on both sides.

  The three frame claims are the generated frame certificates; the idealization rewrote nothing; the algebraic claim
  sets the kernel's run (`KernelValue.lean`) beside the reference's (`RefValue.lean`), both ending at `G`.
-/
import proofs.«171288_g2000302560019453_pallasbulk_905_8_alg».proof.Defs
import proofs.«171288_g2000302560019453_pallasbulk_905_8_alg».proof.Proof.Gen.Kernel
import proofs.«171288_g2000302560019453_pallasbulk_905_8_alg».proof.Proof.Gen.Kernel.Frame
import proofs.«171288_g2000302560019453_pallasbulk_905_8_alg».proof.Proof.Gen.KernelIdeal
import proofs.«171288_g2000302560019453_pallasbulk_905_8_alg».proof.Proof.Gen.KernelIdeal.Frame
import proofs.«171288_g2000302560019453_pallasbulk_905_8_alg».proof.Proof.Gen.ReferenceIdeal
import proofs.«171288_g2000302560019453_pallasbulk_905_8_alg».proof.Proof.Gen.ReferenceIdeal.Frame
import proofs.«171288_g2000302560019453_pallasbulk_905_8_alg».proof.Proof.Gen.Pre_finite_inputs
import proofs.«171288_g2000302560019453_pallasbulk_905_8_alg».proof.Proof.KernelValue
import proofs.«171288_g2000302560019453_pallasbulk_905_8_alg».proof.Proof.RefValue
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

theorem frame_referenceIdeal : Cert.frame_ReferenceIdeal (hReferenceIdeal := Cert.ReferenceIdeal.Gen.facts) (hPre_finite_inputs := Cert.Pre_finite_inputs.Gen.facts) :=
  fun m ρ _ => Cert.ReferenceIdeal.Gen.frame m ρ

/-- Both runs end with the result array at the gate function of the argument arrays, and the arrays agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.SEValue.run m ρ, ?_⟩
  refine (θ_run Cert.ReferenceIdeal.defs _ _).mono (fun r h c => ⟨(h c).1.trans ?_, (h c).2⟩)
    (Cert.ReferenceIdeal.SEValue.run m' ρ')
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
